-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x6 : Shape := ⟨2, ![500000, 6]⟩
abbrev S6x128x128 : Shape := ⟨3, ![6, 128, 128]⟩
abbrev S6x128 : Shape := ⟨2, ![6, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_

variable [Facts]

def fn_part1 {F : FTy → Type} [FloatOps F] (main_arg5 : FVec F S6x128 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg5
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  main_v23

def fn {F : FTy → Type} [FloatOps F] (main_arg0 : FVec F S100000x128 .f32) (main_arg1 : IVec S500000x6 32) (main_arg2 : FVec F S6x128x128 .f32) (main_arg3 : FVec F S6x128 .f32) (main_arg4 : FVec F S6x128x128 .f32) (main_arg5 : FVec F S6x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6x128x128 .f32 := Host.absf main_arg2
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : IVec S_ 1 := andi main_v3 main_v7
  let main_v9 : FVec F S6x128 .f32 := Host.absf main_arg3
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S6x128x128 .f32 := Host.absf main_arg4
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg5 main_v13 main_v16
-- ==== Kernel.lean ====
abbrev S100000x128 : Shape := ⟨2, ![100000, 128]⟩
abbrev S500000x6 : Shape := ⟨2, ![500000, 6]⟩
abbrev S6x128x128 : Shape := ⟨3, ![6, 128, 128]⟩
abbrev S6x128 : Shape := ⟨2, ![6, 128]⟩
abbrev S100000x768 : Shape := ⟨2, ![100000, 768]⟩
abbrev S4000x128 : Shape := ⟨2, ![4000, 128]⟩
abbrev S4000x768 : Shape := ⟨2, ![4000, 768]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500000x1 : Shape := ⟨2, ![500000, 1]⟩
abbrev S500000 : Shape := ⟨1, ![500000]⟩
abbrev S_ : Shape := ⟨0, ![]⟩
abbrev S500000x128 : Shape := ⟨2, ![500000, 128]⟩

abbrev nBuf : Space → Nat
  | .hbm => 93
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S500000x6, .i32⟩
  | .hbm, ⟨2, _⟩ => ⟨S6x128x128, .f32⟩
  | .hbm, ⟨3, _⟩ => ⟨S6x128, .f32⟩
  | .hbm, ⟨4, _⟩ => ⟨S6x128x128, .f32⟩
  | .hbm, ⟨5, _⟩ => ⟨S6x128, .f32⟩
  | .hbm, ⟨6, _⟩ => ⟨S100000x128, .bf16⟩
  | .hbm, ⟨7, _⟩ => ⟨S6x128x128, .bf16⟩
  | .hbm, ⟨8, _⟩ => ⟨S6x128x128, .bf16⟩
  | .hbm, ⟨9, _⟩ => ⟨S100000x768, .f32⟩
  | .hbm, ⟨10, _⟩ => ⟨S500000x1, .i32⟩
  | .hbm, ⟨11, _⟩ => ⟨S500000, .i32⟩
  | .hbm, ⟨12, _⟩ => ⟨S100000x128, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S500000x1, .i32⟩
  | .hbm, ⟨23, _⟩ => ⟨S500000, .i32⟩
  | .hbm, ⟨24, _⟩ => ⟨S100000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S500000x128, .f32⟩
  | .hbm, ⟨35, _⟩ => ⟨S500000x1, .i32⟩
  | .hbm, ⟨36, _⟩ => ⟨S500000, .i32⟩
  | .hbm, ⟨37, _⟩ => ⟨S100000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S500000x128, .f32⟩
  | .hbm, ⟨48, _⟩ => ⟨S500000x1, .i32⟩
  | .hbm, ⟨49, _⟩ => ⟨S500000, .i32⟩
  | .hbm, ⟨50, _⟩ => ⟨S100000x128, .f32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S500000x128, .f32⟩
  | .hbm, ⟨60, _⟩ => ⟨S500000x128, .f32⟩
  | .hbm, ⟨61, _⟩ => ⟨S500000x1, .i32⟩
  | .hbm, ⟨62, _⟩ => ⟨S500000, .i32⟩
  | .hbm, ⟨63, _⟩ => ⟨S100000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x128, .f32⟩
  | .hbm, ⟨73, _⟩ => ⟨S500000x128, .f32⟩
  | .hbm, ⟨74, _⟩ => ⟨S500000x1, .i32⟩
  | .hbm, ⟨75, _⟩ => ⟨S500000, .i32⟩
  | .hbm, ⟨76, _⟩ => ⟨S100000x128, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x128, .f32⟩
  | .hbm, ⟨86, _⟩ => ⟨S500000x128, .f32⟩
  | .hbm, ⟨87, _⟩ => ⟨S500000x1, .i32⟩
  | .hbm, ⟨88, _⟩ => ⟨S500000, .i32⟩
  | .hbm, ⟨89, _⟩ => ⟨S_, .f32⟩
  | .hbm, ⟨90, _⟩ => ⟨S100000x128, .f32⟩
  | .hbm, ⟨91, _⟩ => ⟨S500000x1, .i32⟩
  | .hbm, ⟨92, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S6x128x128, .bf16⟩
  | .local _ .vmem, ⟨3, _⟩ => ⟨S6x128, .f32⟩
  | .local _ .vmem, ⟨4, _⟩ => ⟨S6x128x128, .bf16⟩
  | .local _ .vmem, ⟨5, _⟩ => ⟨S6x128, .f32⟩
  | .local _ .vmem, ⟨6, _⟩ => ⟨S4000x768, .f32⟩
  | .local _ .vmem, ⟨7, _⟩ => ⟨S4000x768, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_7 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_9 : Ref sig .tc := ⟨.hbm, 77, rfl⟩
abbrev main_v61 : Ref sig .tc := ⟨.hbm, 78, rfl⟩
abbrev main_v62 : Ref sig .tc := ⟨.hbm, 79, rfl⟩
abbrev main_c_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S6x128x128_S1x128x128_0_0_0 : ∀ a, (![0, 0, 0] : Fin 3 → Nat) a + S1x128x128.size a ≤ S6x128x128.size a
  h_S1x128x128 : 0 < S1x128x128.numel
  shapeCasts_S1x128x128_S128x128 : S1x128x128.ShapeCasts S128x128
  inb_S6x128_S1x128_0_0 : ∀ a, (![0, 0] : Fin 2 → Nat) a + S1x128.size a ≤ S6x128.size a
  h_S1x128 : 0 < S1x128.numel
  shapeCasts_S1x128_S128 : S1x128.ShapeCasts S128
  shapeCasts_S128_S1x128 : S128.ShapeCasts S1x128
  broadcasts_S1x128_S4000x128 : S1x128.Broadcasts S4000x128
  inb_S4000x768_S4000x128_0_0 : ∀ a, (![0, 0] : Fin 2 → Nat) a + S4000x128.size a ≤ S4000x768.size a
  inb_S6x128x128_S1x128x128_1_0_0 : ∀ a, (![1, 0, 0] : Fin 3 → Nat) a + S1x128x128.size a ≤ S6x128x128.size a
  inb_S6x128_S1x128_1_0 : ∀ a, (![1, 0] : Fin 2 → Nat) a + S1x128.size a ≤ S6x128.size a
  inb_S4000x768_S4000x128_0_128 : ∀ a, (![0, 128] : Fin 2 → Nat) a + S4000x128.size a ≤ S4000x768.size a
  inb_S6x128x128_S1x128x128_2_0_0 : ∀ a, (![2, 0, 0] : Fin 3 → Nat) a + S1x128x128.size a ≤ S6x128x128.size a
  inb_S6x128_S1x128_2_0 : ∀ a, (![2, 0] : Fin 2 → Nat) a + S1x128.size a ≤ S6x128.size a
  inb_S4000x768_S4000x128_0_256 : ∀ a, (![0, 256] : Fin 2 → Nat) a + S4000x128.size a ≤ S4000x768.size a
  inb_S6x128x128_S1x128x128_3_0_0 : ∀ a, (![3, 0, 0] : Fin 3 → Nat) a + S1x128x128.size a ≤ S6x128x128.size a
  inb_S6x128_S1x128_3_0 : ∀ a, (![3, 0] : Fin 2 → Nat) a + S1x128.size a ≤ S6x128.size a
  inb_S4000x768_S4000x128_0_384 : ∀ a, (![0, 384] : Fin 2 → Nat) a + S4000x128.size a ≤ S4000x768.size a
  inb_S6x128x128_S1x128x128_4_0_0 : ∀ a, (![4, 0, 0] : Fin 3 → Nat) a + S1x128x128.size a ≤ S6x128x128.size a
  inb_S6x128_S1x128_4_0 : ∀ a, (![4, 0] : Fin 2 → Nat) a + S1x128.size a ≤ S6x128.size a
  inb_S4000x768_S4000x128_0_512 : ∀ a, (![0, 512] : Fin 2 → Nat) a + S4000x128.size a ≤ S4000x768.size a
  inb_S6x128x128_S1x128x128_5_0_0 : ∀ a, (![5, 0, 0] : Fin 3 → Nat) a + S1x128x128.size a ≤ S6x128x128.size a
  inb_S6x128_S1x128_5_0 : ∀ a, (![5, 0] : Fin 2 → Nat) a + S1x128.size a ≤ S6x128.size a
  inb_S4000x768_S4000x128_0_640 : ∀ a, (![0, 640] : Fin 2 → Nat) a + S4000x128.size a ≤ S4000x768.size a
  slices_S500000x6_S500000x1_0_0 : S500000x6.Slices ![0, 0] S500000x1
  shapeCasts_S500000x1_S500000 : S500000x1.ShapeCasts S500000
  slices_S100000x768_S100000x128_0_0 : S100000x768.Slices ![0, 0] S100000x128
  bcast_S_S500000 : S_.BroadcastsInDim S500000 (![] : Fin 0 → Fin S500000.rank)
  bcast_S500000_S500000x1_0 : S500000.BroadcastsInDim S500000x1 (![0] : Fin 1 → Fin S500000x1.rank)
  slices_S500000x6_S500000x1_0_1 : S500000x6.Slices ![0, 1] S500000x1
  slices_S100000x768_S100000x128_0_128 : S100000x768.Slices ![0, 128] S100000x128
  slices_S500000x6_S500000x1_0_2 : S500000x6.Slices ![0, 2] S500000x1
  slices_S100000x768_S100000x128_0_256 : S100000x768.Slices ![0, 256] S100000x128
  slices_S500000x6_S500000x1_0_3 : S500000x6.Slices ![0, 3] S500000x1
  slices_S100000x768_S100000x128_0_384 : S100000x768.Slices ![0, 384] S100000x128
  slices_S500000x6_S500000x1_0_4 : S500000x6.Slices ![0, 4] S500000x1
  slices_S100000x768_S100000x128_0_512 : S100000x768.Slices ![0, 512] S100000x128
  slices_S500000x6_S500000x1_0_5 : S500000x6.Slices ![0, 5] S500000x1
  slices_S100000x768_S100000x128_0_640 : S100000x768.Slices ![0, 640] S100000x128
  bcast_S_S100000x128 : S_.BroadcastsInDim S100000x128 (![] : Fin 0 → Fin S100000x128.rank)
  dot_S4000x128_S128x128_S4000x128_1_0_0_1_n_n_wf : DotDims.WF S4000x128 S128x128 S4000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128x128.size a ≤ S6x128x128.size a
  hwx0_1 : ∀ i : grid0.Coords, EltTy.bits .bf16 = 32 ∨ (Rect.block (s := S6x128x128) S6x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x128x128.size a ≤ S6x128x128.size a
  hwx0_3 : ∀ i : grid0.Coords, EltTy.bits .bf16 = 32 ∨ (Rect.block (s := S6x128x128) S6x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x768.size a ≤ S100000x768.size a
  hwx0_5 : ∀ i : grid0.Coords, EltTy.bits .f32 = 32 ∨ (Rect.block (s := S100000x768) S4000x768.size (cc0_transform_5 i) (hinb0_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S6x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4000x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000x6 : Shape := ⟨2, ![500000, 6]⟩
abbrev S6x128x128 : Shape := ⟨3, ![6, 128, 128]⟩
abbrev S6x128 : Shape := ⟨2, ![6, 128]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 197
  | .vmem => 0
  | .smem => 0
  | _ => 0

abbrev hbmTy0_0 (i : Nat) : BufTy := match i % 128 with
  | 0 => ⟨S100000x128, .f32⟩
  | 1 => ⟨S500000x6, .i32⟩
  | 2 => ⟨S6x128x128, .f32⟩
  | 3 => ⟨S6x128, .f32⟩
  | 4 => ⟨S6x128x128, .f32⟩
  | 5 => ⟨S6x128, .f32⟩
  | 6 => ⟨S500000x1, .i32⟩
  | 7 => ⟨S500000, .i32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S1x128x128, .f32⟩
  | 18 => ⟨S128x128, .f32⟩
  | 19 => ⟨S500000x128, .f32⟩
  | 20 => ⟨S1x128, .f32⟩
  | 21 => ⟨S128, .f32⟩
  | 22 => ⟨S1x128, .f32⟩
  | 23 => ⟨S500000x128, .f32⟩
  | 24 => ⟨S500000x128, .f32⟩
  | 25 => ⟨S_, .f32⟩
  | 26 => ⟨S500000x128, .f32⟩
  | 27 => ⟨S500000x128, .f32⟩
  | 28 => ⟨S1x128x128, .f32⟩
  | 29 => ⟨S128x128, .f32⟩
  | 30 => ⟨S500000x128, .f32⟩
  | 31 => ⟨S1x128, .f32⟩
  | 32 => ⟨S128, .f32⟩
  | 33 => ⟨S1x128, .f32⟩
  | 34 => ⟨S500000x128, .f32⟩
  | 35 => ⟨S500000x128, .f32⟩
  | 36 => ⟨S500000x1, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S1x128x128, .f32⟩
  | 48 => ⟨S128x128, .f32⟩
  | 49 => ⟨S500000x128, .f32⟩
  | 50 => ⟨S1x128, .f32⟩
  | 51 => ⟨S128, .f32⟩
  | 52 => ⟨S1x128, .f32⟩
  | 53 => ⟨S500000x128, .f32⟩
  | 54 => ⟨S500000x128, .f32⟩
  | 55 => ⟨S_, .f32⟩
  | 56 => ⟨S500000x128, .f32⟩
  | 57 => ⟨S500000x128, .f32⟩
  | 58 => ⟨S1x128x128, .f32⟩
  | 59 => ⟨S128x128, .f32⟩
  | 60 => ⟨S500000x128, .f32⟩
  | 61 => ⟨S1x128, .f32⟩
  | 62 => ⟨S128, .f32⟩
  | 63 => ⟨S1x128, .f32⟩
  | 64 => ⟨S500000x128, .f32⟩
  | 65 => ⟨S500000x128, .f32⟩
  | 66 => ⟨S500000x128, .f32⟩
  | 67 => ⟨S500000x1, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S1x128x128, .f32⟩
  | 79 => ⟨S128x128, .f32⟩
  | 80 => ⟨S500000x128, .f32⟩
  | 81 => ⟨S1x128, .f32⟩
  | 82 => ⟨S128, .f32⟩
  | 83 => ⟨S1x128, .f32⟩
  | 84 => ⟨S500000x128, .f32⟩
  | 85 => ⟨S500000x128, .f32⟩
  | 86 => ⟨S_, .f32⟩
  | 87 => ⟨S500000x128, .f32⟩
  | 88 => ⟨S500000x128, .f32⟩
  | 89 => ⟨S1x128x128, .f32⟩
  | 90 => ⟨S128x128, .f32⟩
  | 91 => ⟨S500000x128, .f32⟩
  | 92 => ⟨S1x128, .f32⟩
  | 93 => ⟨S128, .f32⟩
  | 94 => ⟨S1x128, .f32⟩
  | 95 => ⟨S500000x128, .f32⟩
  | 96 => ⟨S500000x128, .f32⟩
  | 97 => ⟨S500000x128, .f32⟩
  | 98 => ⟨S500000x1, .i32⟩
  | 99 => ⟨S500000, .i32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x128, .f32⟩
  | 109 => ⟨S1x128x128, .f32⟩
  | 110 => ⟨S128x128, .f32⟩
  | 111 => ⟨S500000x128, .f32⟩
  | 112 => ⟨S1x128, .f32⟩
  | 113 => ⟨S128, .f32⟩
  | 114 => ⟨S1x128, .f32⟩
  | 115 => ⟨S500000x128, .f32⟩
  | 116 => ⟨S500000x128, .f32⟩
  | 117 => ⟨S_, .f32⟩
  | 118 => ⟨S500000x128, .f32⟩
  | 119 => ⟨S500000x128, .f32⟩
  | 120 => ⟨S1x128x128, .f32⟩
  | 121 => ⟨S128x128, .f32⟩
  | 122 => ⟨S500000x128, .f32⟩
  | 123 => ⟨S1x128, .f32⟩
  | 124 => ⟨S128, .f32⟩
  | 125 => ⟨S1x128, .f32⟩
  | 126 => ⟨S500000x128, .f32⟩
  | 127 => ⟨S500000x128, .f32⟩
  | _ => ⟨S100000x128, .f32⟩

abbrev hbmTy0_1 (i : Nat) : BufTy := match i % 128 with
  | 0 => ⟨S500000x128, .f32⟩
  | 1 => ⟨S500000x1, .i32⟩
  | 2 => ⟨S500000, .i32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x128, .f32⟩
  | 12 => ⟨S1x128x128, .f32⟩
  | 13 => ⟨S128x128, .f32⟩
  | 14 => ⟨S500000x128, .f32⟩
  | 15 => ⟨S1x128, .f32⟩
  | 16 => ⟨S128, .f32⟩
  | 17 => ⟨S1x128, .f32⟩
  | 18 => ⟨S500000x128, .f32⟩
  | 19 => ⟨S500000x128, .f32⟩
  | 20 => ⟨S_, .f32⟩
  | 21 => ⟨S500000x128, .f32⟩
  | 22 => ⟨S500000x128, .f32⟩
  | 23 => ⟨S1x128x128, .f32⟩
  | 24 => ⟨S128x128, .f32⟩
  | 25 => ⟨S500000x128, .f32⟩
  | 26 => ⟨S1x128, .f32⟩
  | 27 => ⟨S128, .f32⟩
  | 28 => ⟨S1x128, .f32⟩
  | 29 => ⟨S500000x128, .f32⟩
  | 30 => ⟨S500000x128, .f32⟩
  | 31 => ⟨S500000x128, .f32⟩
  | 32 => ⟨S500000x1, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S1x128x128, .f32⟩
  | 44 => ⟨S128x128, .f32⟩
  | 45 => ⟨S500000x128, .f32⟩
  | 46 => ⟨S1x128, .f32⟩
  | 47 => ⟨S128, .f32⟩
  | 48 => ⟨S1x128, .f32⟩
  | 49 => ⟨S500000x128, .f32⟩
  | 50 => ⟨S500000x128, .f32⟩
  | 51 => ⟨S_, .f32⟩
  | 52 => ⟨S500000x128, .f32⟩
  | 53 => ⟨S500000x128, .f32⟩
  | 54 => ⟨S1x128x128, .f32⟩
  | 55 => ⟨S128x128, .f32⟩
  | 56 => ⟨S500000x128, .f32⟩
  | 57 => ⟨S1x128, .f32⟩
  | 58 => ⟨S128, .f32⟩
  | 59 => ⟨S1x128, .f32⟩
  | 60 => ⟨S500000x128, .f32⟩
  | 61 => ⟨S500000x128, .f32⟩
  | 62 => ⟨S500000x128, .f32⟩
  | 63 => ⟨S500000x1, .i32⟩
  | 64 => ⟨S500000, .i32⟩
  | 65 => ⟨S_, .f32⟩
  | 66 => ⟨S100000x128, .f32⟩
  | 67 => ⟨S500000x1, .i32⟩
  | 68 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call1_cst : Ref sig .tc := ⟨.hbm, 55, rfl⟩
abbrev main_call1_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_3 : Ref sig .tc := ⟨.hbm, 69, rfl⟩
abbrev main_v55 : Ref sig .tc := ⟨.hbm, 70, rfl⟩
abbrev main_v56 : Ref sig .tc := ⟨.hbm, 71, rfl⟩
abbrev main_c_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call2_cst : Ref sig .tc := ⟨.hbm, 86, rfl⟩
abbrev main_call2_v0 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_c_5 : Ref sig .tc := ⟨.hbm, 100, rfl⟩
abbrev main_v82 : Ref sig .tc := ⟨.hbm, 101, rfl⟩
abbrev main_v83 : Ref sig .tc := ⟨.hbm, 102, rfl⟩
abbrev main_c_6 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_call3_cst : Ref sig .tc := ⟨.hbm, 117, rfl⟩
abbrev main_call3_v0 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_c_7 : Ref sig .tc := ⟨.hbm, 131, rfl⟩
abbrev main_v109 : Ref sig .tc := ⟨.hbm, 132, rfl⟩
abbrev main_v110 : Ref sig .tc := ⟨.hbm, 133, rfl⟩
abbrev main_c_8 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_call4_cst : Ref sig .tc := ⟨.hbm, 148, rfl⟩
abbrev main_call4_v0 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_c_9 : Ref sig .tc := ⟨.hbm, 162, rfl⟩
abbrev main_v136 : Ref sig .tc := ⟨.hbm, 163, rfl⟩
abbrev main_v137 : Ref sig .tc := ⟨.hbm, 164, rfl⟩
abbrev main_c_10 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_call5_cst : Ref sig .tc := ⟨.hbm, 179, rfl⟩
abbrev main_call5_v0 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_cst : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩

abbrev nD : Nat := 1
abbrev τ : Topo := Topo.v7x

variable {F : FTy → Type} [FloatOps F]

class Facts₀ : Prop where
  slices_S500000x6_S500000x1_0_0 : S500000x6.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  slices_S500000x6_S500000x1_0_1 : S500000x6.Slices ![0, 1] S500000x1
  slices_S6x128x128_S1x128x128_1_0_0 : S6x128x128.Slices ![1, 0, 0] S1x128x128
  slices_S6x128_S1x128_1_0 : S6x128.Slices ![1, 0] S1x128
  slices_S500000x6_S500000x1_0_2 : S500000x6.Slices ![0, 2] S500000x1
  slices_S6x128x128_S1x128x128_2_0_0 : S6x128x128.Slices ![2, 0, 0] S1x128x128
  slices_S6x128_S1x128_2_0 : S6x128.Slices ![2, 0] S1x128
  slices_S500000x6_S500000x1_0_3 : S500000x6.Slices ![0, 3] S500000x1
  slices_S6x128x128_S1x128x128_3_0_0 : S6x128x128.Slices ![3, 0, 0] S1x128x128
  slices_S6x128_S1x128_3_0 : S6x128.Slices ![3, 0] S1x128
  slices_S500000x6_S500000x1_0_4 : S500000x6.Slices ![0, 4] S500000x1
  slices_S6x128x128_S1x128x128_4_0_0 : S6x128x128.Slices ![4, 0, 0] S1x128x128
  slices_S6x128_S1x128_4_0 : S6x128.Slices ![4, 0] S1x128
  slices_S500000x6_S500000x1_0_5 : S500000x6.Slices ![0, 5] S500000x1
  slices_S6x128x128_S1x128x128_5_0_0 : S6x128x128.Slices ![5, 0, 0] S1x128x128
  slices_S6x128_S1x128_5_0 : S6x128.Slices ![5, 0] S1x128
  bcast_S_S100000x128 : S_.BroadcastsInDim S100000x128 (![] : Fin 0 → Fin S100000x128.rank)
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KernelAround.lean ====
/-
  The run of `Kernel`'s @main around its one region, at any float instance.

  @main is three format changes of the arguments, one region (a grid of 25 points, each staging a block of 4000 node
  rows, the four weight and bias tables whole, and a block of 4000 x 768 results), and 83 host operations that only
  read the region's result. The region's body loads the node block and, for each of the six branches, the branch's
  two weight matrices and two bias rows, and stores the branch's result into its 128-column slab of the result
  block; the six slabs tile the block. So after the body the result block is the canon of six stores over the
  loaded blocks, every input block is where the pipeline put it, and nothing else is touched. From that: every
  weakly fair execution terminates, faults nowhere, leaves the six argument arrays as launched, and leaves the
  region's result array at what the library computes from the per-point stores, the later lines applied on top.
-/
import proofs.«143063_j85744727097473_2_alg».proof.Proof.Gen.Kernel.Launch
import proofs.«143063_j85744727097473_2_alg».proof.Proof.Gen.Kernel.Skeleton
import proofs.«143063_j85744727097473_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the three format changes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

set_option maxHeartbeats 40000000 in
/-- @main reduces to the region continued by the 83 later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 40000000 in
/-- The later lines touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
set_option maxHeartbeats 40000000 in
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- No later line writes the reference `b` when `b` is none of their 83 result buffers: each line writes only its own
    result. Stated for the six arrays of the pipeline and the four arguments that bypass it. -/
theorem tail_keeps (b : Ref sig .tc)
    (hb : b = main_v0 ∨ b = main_v1 ∨ b = main_arg3 ∨ b = main_v2 ∨ b = main_arg5 ∨ b = main_v3
      ∨ b = main_arg0 ∨ b = main_arg1 ∨ b = main_arg2 ∨ b = main_arg4) :
    (hostOps1 : List (HloOp τ sig (Elt F))).Forall fun op => Proc.devRef .tc b ∉ op.writes := by
  rcases hb with rfl | rfl | rfl | rfl | rfl | rfl | rfl | rfl | rfl | rfl <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The six arrays of the pipeline, window by window. -/
theorem arrRef_cases : ∀ w : Fin 6, Pipeline.arrRef spec0 w = main_v0 ∨ Pipeline.arrRef spec0 w = main_v1 ∨ Pipeline.arrRef spec0 w = main_arg3
    ∨ Pipeline.arrRef spec0 w = main_v2 ∨ Pipeline.arrRef spec0 w = main_arg5 ∨ Pipeline.arrRef spec0 w = main_v3 := by decide

set_option maxHeartbeats 40000000 in
/-- The later lines write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  refine (List.forall_iff_forall_mem.mp (tail_keeps (F := F) (Pipeline.arrRef spec0 w) ?_)) op hop
  rcases arrRef_cases w with h | h | h | h | h | h <;> simp only [h, true_or, or_true]

/-- No format change before the region writes an argument: the region finds the arguments as launched. -/
theorem V_arg (b : Ref sig .tc) (hb : b = main_arg0 ∨ b = main_arg1 ∨ b = main_arg2 ∨ b = main_arg3 ∨ b = main_arg4 ∨ b = main_arg5) (c : Dev nD) :
    V m c b = m ((c : Thread nD τ).loc b) :=
  StableHlo.after_of_forall_not_mem (b := Proc.devRef .tc b) _ _ (List.forall_iff_forall_mem.mp (by
    rcases hb with rfl | rfl | rfl | rfl | rfl | rfl <;>
    · simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 40000000 in
/-- An argument that bypasses the pipeline ends as launched: no later line writes it and it is no array of the pipeline. -/
theorem W_arg (b : Ref sig .tc) (hb : b = main_arg0 ∨ b = main_arg1 ∨ b = main_arg2 ∨ b = main_arg4)
    (dats : (p : Fin _) → (c : Dev nD) → Dat τ (Elt F) Unit ℕ (UR sig nD τ) ℕ (cfgs p) c) (c : Dev nD) :
    Pipeline.afterTail₀ cfgs dats 0 (V0 m) [hostOps1] c b = m ((c : Thread nD τ).loc b) := by
  have hne : ∀ w, Pipeline.arrRef spec0 w ≠ b := by
    rcases hb with rfl | rfl | rfl | rfl <;> exact (by decide)
  have hk := tail_keeps (F := F) b (by rcases hb with rfl | rfl | rfl | rfl <;> simp only [true_or, or_true])
  unfold Pipeline.afterTail₀
  rw [StableHlo.after_of_forall_not_mem (b := Proc.devRef .tc b) _ _ (List.forall_iff_forall_mem.mp (by
      simpa only [List.flatten_cons, List.flatten_nil, List.append_nil] using hk)),
    Pipeline.withArrays_of_ne _ c (V0 m c) _ b hne]
  exact V_arg m b (by rcases hb with rfl | rfl | rfl | rfl <;> simp only [true_or, or_true]) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 40000000 in
/-- The frame claim's post from a run to the library's post: a staged argument (the two bias tables) by the
    library's reading of an input's array, a bypassing argument by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_arg m main_arg0 (by simp only [true_or]) dats c),
     ((h c).2 main_arg1 (Pipeline.mem_restRefs_of main_arg1 (by decide) (by decide))).trans (W_arg m main_arg1 (by simp only [true_or, or_true]) dats c),
     ((h c).2 main_arg2 (Pipeline.mem_restRefs_of main_arg2 (by decide) (by decide))).trans (W_arg m main_arg2 (by simp only [true_or, or_true]) dats c),
     ((h c).1 2).trans (((dats 0 c).arrAt_in 2 rfl _).trans ((hA c 2).trans (V_arg m main_arg3 (by simp only [true_or, or_true]) c))),
     ((h c).2 main_arg4 (Pipeline.mem_restRefs_of main_arg4 (by decide) (by decide))).trans (W_arg m main_arg4 (by simp only [or_true]) dats c),
     ((h c).1 4).trans (((dats 0 c).arrAt_in 4 rfl _).trans ((hA c 4).trans (V_arg m main_arg5 (by simp only [or_true]) c)))⟩) h

/-! ## The body's accesses -/

/-- The whole node block. -/
abbrev rX : Rect S4000x128 := Rect.unit (s := S4000x128) ![0, 0] S4000x128.size inb_S4000x128_S4000x128_0_0
/-- Branch `k`'s matrix in a weight table. -/
abbrev rW0 : Rect S6x128x128 := Rect.unit (s := S6x128x128) ![0, 0, 0] S1x128x128.size inb_S6x128x128_S1x128x128_0_0_0
abbrev rW1 : Rect S6x128x128 := Rect.unit (s := S6x128x128) ![1, 0, 0] S1x128x128.size inb_S6x128x128_S1x128x128_1_0_0
abbrev rW2 : Rect S6x128x128 := Rect.unit (s := S6x128x128) ![2, 0, 0] S1x128x128.size inb_S6x128x128_S1x128x128_2_0_0
abbrev rW3 : Rect S6x128x128 := Rect.unit (s := S6x128x128) ![3, 0, 0] S1x128x128.size inb_S6x128x128_S1x128x128_3_0_0
abbrev rW4 : Rect S6x128x128 := Rect.unit (s := S6x128x128) ![4, 0, 0] S1x128x128.size inb_S6x128x128_S1x128x128_4_0_0
abbrev rW5 : Rect S6x128x128 := Rect.unit (s := S6x128x128) ![5, 0, 0] S1x128x128.size inb_S6x128x128_S1x128x128_5_0_0
/-- Branch `k`'s row in a bias table. -/
abbrev rB0 : Rect S6x128 := Rect.unit (s := S6x128) ![0, 0] S1x128.size inb_S6x128_S1x128_0_0
abbrev rB1 : Rect S6x128 := Rect.unit (s := S6x128) ![1, 0] S1x128.size inb_S6x128_S1x128_1_0
abbrev rB2 : Rect S6x128 := Rect.unit (s := S6x128) ![2, 0] S1x128.size inb_S6x128_S1x128_2_0
abbrev rB3 : Rect S6x128 := Rect.unit (s := S6x128) ![3, 0] S1x128.size inb_S6x128_S1x128_3_0
abbrev rB4 : Rect S6x128 := Rect.unit (s := S6x128) ![4, 0] S1x128.size inb_S6x128_S1x128_4_0
abbrev rB5 : Rect S6x128 := Rect.unit (s := S6x128) ![5, 0] S1x128.size inb_S6x128_S1x128_5_0
/-- Branch `k`'s 128-column slab of the result block. -/
abbrev rO0 : Rect S4000x768 := Rect.unit (s := S4000x768) ![0, 0] S4000x128.size inb_S4000x768_S4000x128_0_0
abbrev rO1 : Rect S4000x768 := Rect.unit (s := S4000x768) ![0, 128] S4000x128.size inb_S4000x768_S4000x128_0_128
abbrev rO2 : Rect S4000x768 := Rect.unit (s := S4000x768) ![0, 256] S4000x128.size inb_S4000x768_S4000x128_0_256
abbrev rO3 : Rect S4000x768 := Rect.unit (s := S4000x768) ![0, 384] S4000x128.size inb_S4000x768_S4000x128_0_384
abbrev rO4 : Rect S4000x768 := Rect.unit (s := S4000x768) ![0, 512] S4000x128.size inb_S4000x768_S4000x128_0_512
abbrev rO5 : Rect S4000x768 := Rect.unit (s := S4000x768) ![0, 640] S4000x128.size inb_S4000x768_S4000x128_0_640

/-! ## What the body leaves in the result block -/

/-- The result block after the body, from the five input blocks: its six stores as pieces, last first, each the
    branch's payload of the node block and the branch's slices of the four tables. -/
def out0_5 (x0 : Vec F S4000x128 .bf16) (x1 : Vec F S6x128x128 .bf16) (x2 : Vec F S6x128 .f32) (x3 : Vec F S6x128x128 .bf16) (x4 : Vec F S6x128 .f32) :
    Vec F S4000x768 .f32 :=
  View.canon [
    ⟨rO5, k0_pay2 (k0_pay3 (View.ld x0 rX)) (View.ld x1 rW5) (View.ld x2 rB5) (View.ld x3 rW5) (View.ld x4 rB5)⟩,
    ⟨rO4, k0_pay1 (k0_pay10 (k0_pay3 (View.ld x0 rX)) (View.ld x1 rW4) (View.ld x2 rB4) (View.ld x3 rW4)) (k0_pay11 (View.ld x4 rB4))⟩,
    ⟨rO3, k0_pay9 (k0_pay3 (View.ld x0 rX)) (k0_pay8 (View.ld x1 rW3)) (View.ld x2 rB3) (View.ld x3 rW3) (View.ld x4 rB3)⟩,
    ⟨rO2, k0_pay7 (k0_pay3 (View.ld x0 rX)) (View.ld x1 rW2) (View.ld x2 rB2) (View.ld x3 rW2) (View.ld x4 rB2)⟩,
    ⟨rO1, k0_pay6 (k0_pay5 (View.ld x0 rX) (View.ld x1 rW1) (View.ld x2 rB1)) (View.ld x3 rW1) (View.ld x4 rB1)⟩,
    ⟨rO0, k0_pay4 (View.ld x0 rX) (View.ld x1 rW0) (View.ld x2 rB0) (View.ld x3 rW0) (View.ld x4 rB0)⟩]

/-- The six slabs tile the block, so they cover it. -/
theorem cover0_5 (p5 p4 p3 p2 p1 p0 : Vec F S4000x128 .f32) (y : S4000x768.Idx) :
    ∃ pc ∈ ([⟨rO5, p5⟩, ⟨rO4, p4⟩, ⟨rO3, p3⟩, ⟨rO2, p2⟩, ⟨rO1, p1⟩, ⟨rO0, p0⟩] : List (View.Piece (Elt F) S4000x768 .f32)), y ∈ pc.1.set :=
  View.cover_of_tiled [⟨rO5, p5⟩, ⟨rO4, p4⟩, ⟨rO3, p3⟩, ⟨rO2, p2⟩, ⟨rO1, p1⟩, ⟨rO0, p0⟩] S4000x128.size (by rfl) y

/-! ## The body's triple -/

set_option maxHeartbeats 4000000 in
/-- The body on whole staging memrefs, the five inputs' at read contents and the result's at anything, runs to the
    continuation holding the inputs' as they were and the result's at `out0_5` of the inputs'. -/
theorem sound_kernel (c : Dev nD) (E : Set ℕ) (i : grid0.Coords)
    (arg1 : Memref sig .tc .vmem S4000x128 .bf16) (harg1 : arg1.IsWhole) (arg2 : Memref sig .tc .vmem S6x128x128 .bf16) (harg2 : arg2.IsWhole)
    (arg3 : Memref sig .tc .vmem S6x128 .f32) (harg3 : arg3.IsWhole) (arg4 : Memref sig .tc .vmem S6x128x128 .bf16) (harg4 : arg4.IsWhole)
    (arg5 : Memref sig .tc .vmem S6x128 .f32) (harg5 : arg5.IsWhole) (arg6 : Memref sig .tc .vmem S4000x768 .f32) (harg6 : arg6.IsWhole)
    (x0 : Vec F S4000x128 .bf16) (x1 : Vec F S6x128x128 .bf16) (x2 : Vec F S6x128 .f32) (x3 : Vec F S6x128x128 .bf16) (x4 : Vec F S6x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__node_branch_kernel i arg1 harg1 arg2 harg2 arg3 harg3 arg4 harg4 arg5 harg5 arg6 harg6) K := by
  simp only [cc0__node_branch_kernel_eq_skeleton]; unfold cc0__node_branch_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _ _ _)

/-! ## The pipeline's proof data -/

/-- The proof data: the arrays as the region finds them; after the body each input's buffer at its block and the
    result's at `out0_5` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 40000000 in
/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Around

end
-- ==== Proof.KernelIdealAround.lean ====
/-
  The run of `KernelIdeal`'s @main around its one region, at any float instance.

  @main is three format changes of the arguments, one region (a grid of 25 points, each staging a block of 4000 node
  rows, the four weight and bias tables whole, and a block of 4000 x 768 results), and 83 host operations that only
  read the region's result. The region's body loads the node block and, for each of the six branches, the branch's
  two weight matrices and two bias rows, and stores the branch's result into its 128-column slab of the result
  block; the six slabs tile the block. So after the body the result block is the canon of six stores over the
  loaded blocks, every input block is where the pipeline put it, and nothing else is touched. From that: every
  weakly fair execution terminates, faults nowhere, leaves the six argument arrays as launched, and leaves the
  region's result array at what the library computes from the per-point stores, the later lines applied on top.
-/
import proofs.«143063_j85744727097473_2_alg».proof.Proof.Gen.KernelIdeal.Launch
import proofs.«143063_j85744727097473_2_alg».proof.Proof.Gen.KernelIdeal.Skeleton
import proofs.«143063_j85744727097473_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the three format changes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

set_option maxHeartbeats 40000000 in
/-- @main reduces to the region continued by the 83 later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 40000000 in
/-- The later lines touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
set_option maxHeartbeats 40000000 in
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- No later line writes the reference `b` when `b` is none of their 83 result buffers: each line writes only its own
    result. Stated for the six arrays of the pipeline and the four arguments that bypass it. -/
theorem tail_keeps (b : Ref sig .tc)
    (hb : b = main_v0 ∨ b = main_v1 ∨ b = main_arg3 ∨ b = main_v2 ∨ b = main_arg5 ∨ b = main_v3
      ∨ b = main_arg0 ∨ b = main_arg1 ∨ b = main_arg2 ∨ b = main_arg4) :
    (hostOps1 : List (HloOp τ sig (Elt F))).Forall fun op => Proc.devRef .tc b ∉ op.writes := by
  rcases hb with rfl | rfl | rfl | rfl | rfl | rfl | rfl | rfl | rfl | rfl <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The six arrays of the pipeline, window by window. -/
theorem arrRef_cases : ∀ w : Fin 6, Pipeline.arrRef spec0 w = main_v0 ∨ Pipeline.arrRef spec0 w = main_v1 ∨ Pipeline.arrRef spec0 w = main_arg3
    ∨ Pipeline.arrRef spec0 w = main_v2 ∨ Pipeline.arrRef spec0 w = main_arg5 ∨ Pipeline.arrRef spec0 w = main_v3 := by decide

set_option maxHeartbeats 40000000 in
/-- The later lines write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  refine (List.forall_iff_forall_mem.mp (tail_keeps (F := F) (Pipeline.arrRef spec0 w) ?_)) op hop
  rcases arrRef_cases w with h | h | h | h | h | h <;> simp only [h, true_or, or_true]

/-- No format change before the region writes an argument: the region finds the arguments as launched. -/
theorem V_arg (b : Ref sig .tc) (hb : b = main_arg0 ∨ b = main_arg1 ∨ b = main_arg2 ∨ b = main_arg3 ∨ b = main_arg4 ∨ b = main_arg5) (c : Dev nD) :
    V m c b = m ((c : Thread nD τ).loc b) :=
  StableHlo.after_of_forall_not_mem (b := Proc.devRef .tc b) _ _ (List.forall_iff_forall_mem.mp (by
    rcases hb with rfl | rfl | rfl | rfl | rfl | rfl <;>
    · simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 40000000 in
/-- An argument that bypasses the pipeline ends as launched: no later line writes it and it is no array of the pipeline. -/
theorem W_arg (b : Ref sig .tc) (hb : b = main_arg0 ∨ b = main_arg1 ∨ b = main_arg2 ∨ b = main_arg4)
    (dats : (p : Fin _) → (c : Dev nD) → Dat τ (Elt F) Unit ℕ (UR sig nD τ) ℕ (cfgs p) c) (c : Dev nD) :
    Pipeline.afterTail₀ cfgs dats 0 (V0 m) [hostOps1] c b = m ((c : Thread nD τ).loc b) := by
  have hne : ∀ w, Pipeline.arrRef spec0 w ≠ b := by
    rcases hb with rfl | rfl | rfl | rfl <;> exact (by decide)
  have hk := tail_keeps (F := F) b (by rcases hb with rfl | rfl | rfl | rfl <;> simp only [true_or, or_true])
  unfold Pipeline.afterTail₀
  rw [StableHlo.after_of_forall_not_mem (b := Proc.devRef .tc b) _ _ (List.forall_iff_forall_mem.mp (by
      simpa only [List.flatten_cons, List.flatten_nil, List.append_nil] using hk)),
    Pipeline.withArrays_of_ne _ c (V0 m c) _ b hne]
  exact V_arg m b (by rcases hb with rfl | rfl | rfl | rfl <;> simp only [true_or, or_true]) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 40000000 in
/-- The frame claim's post from a run to the library's post: a staged argument (the two bias tables) by the
    library's reading of an input's array, a bypassing argument by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_arg m main_arg0 (by simp only [true_or]) dats c),
     ((h c).2 main_arg1 (Pipeline.mem_restRefs_of main_arg1 (by decide) (by decide))).trans (W_arg m main_arg1 (by simp only [true_or, or_true]) dats c),
     ((h c).2 main_arg2 (Pipeline.mem_restRefs_of main_arg2 (by decide) (by decide))).trans (W_arg m main_arg2 (by simp only [true_or, or_true]) dats c),
     ((h c).1 2).trans (((dats 0 c).arrAt_in 2 rfl _).trans ((hA c 2).trans (V_arg m main_arg3 (by simp only [true_or, or_true]) c))),
     ((h c).2 main_arg4 (Pipeline.mem_restRefs_of main_arg4 (by decide) (by decide))).trans (W_arg m main_arg4 (by simp only [or_true]) dats c),
     ((h c).1 4).trans (((dats 0 c).arrAt_in 4 rfl _).trans ((hA c 4).trans (V_arg m main_arg5 (by simp only [or_true]) c)))⟩) h

/-! ## The body's accesses -/

/-- The whole node block. -/
abbrev rX : Rect S4000x128 := Rect.unit (s := S4000x128) ![0, 0] S4000x128.size inb_S4000x128_S4000x128_0_0
/-- Branch `k`'s matrix in a weight table. -/
abbrev rW0 : Rect S6x128x128 := Rect.unit (s := S6x128x128) ![0, 0, 0] S1x128x128.size inb_S6x128x128_S1x128x128_0_0_0
abbrev rW1 : Rect S6x128x128 := Rect.unit (s := S6x128x128) ![1, 0, 0] S1x128x128.size inb_S6x128x128_S1x128x128_1_0_0
abbrev rW2 : Rect S6x128x128 := Rect.unit (s := S6x128x128) ![2, 0, 0] S1x128x128.size inb_S6x128x128_S1x128x128_2_0_0
abbrev rW3 : Rect S6x128x128 := Rect.unit (s := S6x128x128) ![3, 0, 0] S1x128x128.size inb_S6x128x128_S1x128x128_3_0_0
abbrev rW4 : Rect S6x128x128 := Rect.unit (s := S6x128x128) ![4, 0, 0] S1x128x128.size inb_S6x128x128_S1x128x128_4_0_0
abbrev rW5 : Rect S6x128x128 := Rect.unit (s := S6x128x128) ![5, 0, 0] S1x128x128.size inb_S6x128x128_S1x128x128_5_0_0
/-- Branch `k`'s row in a bias table. -/
abbrev rB0 : Rect S6x128 := Rect.unit (s := S6x128) ![0, 0] S1x128.size inb_S6x128_S1x128_0_0
abbrev rB1 : Rect S6x128 := Rect.unit (s := S6x128) ![1, 0] S1x128.size inb_S6x128_S1x128_1_0
abbrev rB2 : Rect S6x128 := Rect.unit (s := S6x128) ![2, 0] S1x128.size inb_S6x128_S1x128_2_0
abbrev rB3 : Rect S6x128 := Rect.unit (s := S6x128) ![3, 0] S1x128.size inb_S6x128_S1x128_3_0
abbrev rB4 : Rect S6x128 := Rect.unit (s := S6x128) ![4, 0] S1x128.size inb_S6x128_S1x128_4_0
abbrev rB5 : Rect S6x128 := Rect.unit (s := S6x128) ![5, 0] S1x128.size inb_S6x128_S1x128_5_0
/-- Branch `k`'s 128-column slab of the result block. -/
abbrev rO0 : Rect S4000x768 := Rect.unit (s := S4000x768) ![0, 0] S4000x128.size inb_S4000x768_S4000x128_0_0
abbrev rO1 : Rect S4000x768 := Rect.unit (s := S4000x768) ![0, 128] S4000x128.size inb_S4000x768_S4000x128_0_128
abbrev rO2 : Rect S4000x768 := Rect.unit (s := S4000x768) ![0, 256] S4000x128.size inb_S4000x768_S4000x128_0_256
abbrev rO3 : Rect S4000x768 := Rect.unit (s := S4000x768) ![0, 384] S4000x128.size inb_S4000x768_S4000x128_0_384
abbrev rO4 : Rect S4000x768 := Rect.unit (s := S4000x768) ![0, 512] S4000x128.size inb_S4000x768_S4000x128_0_512
abbrev rO5 : Rect S4000x768 := Rect.unit (s := S4000x768) ![0, 640] S4000x128.size inb_S4000x768_S4000x128_0_640

/-! ## What the body leaves in the result block -/

/-- The result block after the body, from the five input blocks: its six stores as pieces, last first, each the
    branch's payload of the node block and the branch's slices of the four tables. -/
def out0_5 (x0 : Vec F S4000x128 .bf16) (x1 : Vec F S6x128x128 .bf16) (x2 : Vec F S6x128 .f32) (x3 : Vec F S6x128x128 .bf16) (x4 : Vec F S6x128 .f32) :
    Vec F S4000x768 .f32 :=
  View.canon [
    ⟨rO5, k0_pay2 (k0_pay3 (View.ld x0 rX)) (View.ld x1 rW5) (View.ld x2 rB5) (View.ld x3 rW5) (View.ld x4 rB5)⟩,
    ⟨rO4, k0_pay1 (k0_pay10 (k0_pay3 (View.ld x0 rX)) (View.ld x1 rW4) (View.ld x2 rB4) (View.ld x3 rW4)) (k0_pay11 (View.ld x4 rB4))⟩,
    ⟨rO3, k0_pay9 (k0_pay3 (View.ld x0 rX)) (k0_pay8 (View.ld x1 rW3)) (View.ld x2 rB3) (View.ld x3 rW3) (View.ld x4 rB3)⟩,
    ⟨rO2, k0_pay7 (k0_pay3 (View.ld x0 rX)) (View.ld x1 rW2) (View.ld x2 rB2) (View.ld x3 rW2) (View.ld x4 rB2)⟩,
    ⟨rO1, k0_pay6 (k0_pay5 (View.ld x0 rX) (View.ld x1 rW1) (View.ld x2 rB1)) (View.ld x3 rW1) (View.ld x4 rB1)⟩,
    ⟨rO0, k0_pay4 (View.ld x0 rX) (View.ld x1 rW0) (View.ld x2 rB0) (View.ld x3 rW0) (View.ld x4 rB0)⟩]

/-- The six slabs tile the block, so they cover it. -/
theorem cover0_5 (p5 p4 p3 p2 p1 p0 : Vec F S4000x128 .f32) (y : S4000x768.Idx) :
    ∃ pc ∈ ([⟨rO5, p5⟩, ⟨rO4, p4⟩, ⟨rO3, p3⟩, ⟨rO2, p2⟩, ⟨rO1, p1⟩, ⟨rO0, p0⟩] : List (View.Piece (Elt F) S4000x768 .f32)), y ∈ pc.1.set :=
  View.cover_of_tiled [⟨rO5, p5⟩, ⟨rO4, p4⟩, ⟨rO3, p3⟩, ⟨rO2, p2⟩, ⟨rO1, p1⟩, ⟨rO0, p0⟩] S4000x128.size (by rfl) y

/-! ## The body's triple -/

set_option maxHeartbeats 4000000 in
/-- The body on whole staging memrefs, the five inputs' at read contents and the result's at anything, runs to the
    continuation holding the inputs' as they were and the result's at `out0_5` of the inputs'. -/
theorem sound_kernel (c : Dev nD) (E : Set ℕ) (i : grid0.Coords)
    (arg1 : Memref sig .tc .vmem S4000x128 .bf16) (harg1 : arg1.IsWhole) (arg2 : Memref sig .tc .vmem S6x128x128 .bf16) (harg2 : arg2.IsWhole)
    (arg3 : Memref sig .tc .vmem S6x128 .f32) (harg3 : arg3.IsWhole) (arg4 : Memref sig .tc .vmem S6x128x128 .bf16) (harg4 : arg4.IsWhole)
    (arg5 : Memref sig .tc .vmem S6x128 .f32) (harg5 : arg5.IsWhole) (arg6 : Memref sig .tc .vmem S4000x768 .f32) (harg6 : arg6.IsWhole)
    (x0 : Vec F S4000x128 .bf16) (x1 : Vec F S6x128x128 .bf16) (x2 : Vec F S6x128 .f32) (x3 : Vec F S6x128x128 .bf16) (x4 : Vec F S6x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__node_branch_kernel i arg1 harg1 arg2 harg2 arg3 harg3 arg4 harg4 arg5 harg5 arg6 harg6) K := by
  simp only [cc0__node_branch_kernel_eq_skeleton]; unfold cc0__node_branch_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _ _ _ _ _)

/-! ## The pipeline's proof data -/

/-- The proof data: the arrays as the region finds them; after the body each input's buffer at its block and the
    result's at `out0_5` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 40000000 in
/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Around

end
-- ==== Proof.BranchSpec.lean ====
/-
  One branch of the network on one row.

  Each of the six branches is a two-layer map of a row `r` of 128 numbers: a linear layer with weights `w1` and
  bias `b1`, the ramp `max(., 0)`, then a linear layer with weights `w2` and bias `b2`. Entry `j` of its
  result is written here over the extended reals, index by index; both programs compute exactly this, the
  kernel for every node row before gathering, the reference for every gathered row.
-/
import Idealize.ShloMosaic.PureOps.Ideal
import Idealize.ShloMosaic.Lib.ValueIdx

noncomputable section

namespace Cert.Branch

open Idealize.ShloMosaic

/-- Entry `j` of one branch applied to the row `r`:
    `(∑ h, max ((∑ c, r c * w1 c h) + b1 h) 0 * w2 h j) + b2 j`. -/
def mlpRow (w1 : Fin 128 → Fin 128 → EReal) (b1 : Fin 128 → EReal) (w2 : Fin 128 → Fin 128 → EReal) (b2 : Fin 128 → EReal)
    (r : Fin 128 → EReal) (j : Fin 128) : EReal :=
  (∑ h : Fin 128, max ((∑ c : Fin 128, r c * w1 c h) + b1 h) 0 * w2 h j) + b2 j

end Cert.Branch

end
-- ==== Proof.KernelBranch.lean ====
/-
  One branch of the kernel's body at an index.

  The kernel's body computes, for one block of 4000 node rows and one branch, a linear layer into a zero
  accumulator, the bias laid along every row, the ramp against zero, a format change that is the identity over
  the extended reals, and a second linear layer with its bias. Read at row `p` and column `j` this is entry `j`
  of the branch applied to row `p` of the block. The six stored values are this one chain, cut at different places.
-/
import proofs.«143063_j85744727097473_2_alg».proof.Proof.Gen.KernelIdeal.Skeleton
import proofs.«143063_j85744727097473_2_alg».proof.Proof.BranchSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BranchValue

open Cert.KernelIdeal Cert.KernelIdeal.Gen Idealize.ShloMosaic Idealize.ShloMosaic.ValueIdx Idealize.SL.Sem

/-! ## The operand indices of the 4000×128 by 128×128 product -/

/-- The left operand's row is the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The left operand's column is the contraction position. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The right operand's row is the contraction position. -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The right operand's column is the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-! ## The non-pointwise operations, each read at row `p`, column `j` -/

/-- A product into the zero accumulator, at `(p, j)`: the sum over `c` of `a (p, c) * w (c, j)`. -/
theorem matmul_zero_apply (a : FVec Ideal S4000x128 .bf16) (w : FVec Ideal S128x128 .bf16) (p : Fin 4000) (j : Fin 128) :
    matmul dot_S4000x128_S128x128_S4000x128_1_0_0_1_n_n none a w (constant (F := Ideal) S4000x128 .f32 0x00000000#32) (ix2 p j)
      = ∑ c : Fin 128, a (ix2 p c) * w (ix2 c j) := by
  show FloatOps.matmul dot_S4000x128_S128x128_S4000x128_1_0_0_1_n_n none a w (constant (F := Ideal) S4000x128 .f32 0x00000000#32) (ix2 p j) = _
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j)
      ((contrEquiv1 dot_S4000x128_S128x128_S4000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S4000x128_S128x128_S4000x128_1_0_0_1_n_n.rhsIdx (ix2 p j)
      ((contrEquiv1 dot_S4000x128_S128x128_S4000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

/-- The weights with their leading unit axis dropped, at `(c, j)`: the weights at `(0, c, j)`. -/
theorem weights_apply (w : Vec Ideal S1x128x128 .bf16) (h : S1x128x128.ShapeCasts S128x128) (c j : Fin 128) :
    (shapeCast S128x128 w h : FVec Ideal S128x128 .bf16) (ix2 c j) = w (ix3 (0 : Fin 1) c j) :=
  shapeCast_1ab_ab_apply w h c j

/-- The bias laid along every row, at `(p, j)`: the bias at `(0, j)`. -/
theorem bias_apply (b : Vec Ideal S1x128 .f32) (h1 : S1x128.ShapeCasts S128) (h2 : S128.ShapeCasts S1x128)
    (h3 : S1x128.Broadcasts S4000x128) (p : Fin 4000) (j : Fin 128) :
    (broadcastTo S4000x128 (shapeCast S1x128 (shapeCast S128 b h1) h2) h3 : FVec Ideal S4000x128 .f32) (ix2 p j)
      = b (ix2 (0 : Fin 1) j) :=
  (broadcastTo_1b_ab_apply _ h3 p j).trans
    ((shapeCast_a_1a_apply _ h2 (0 : Fin 1) j).trans (shapeCast_1a_a_apply b h1 j))

/-! ## The branch at an index -/

/-- The first layer with its bias and the ramp, at `(p, h)`. -/
theorem hidden_apply (xb : FVec Ideal S4000x128 .bf16) (w1 : Vec Ideal S1x128x128 .bf16) (b1 : Vec Ideal S1x128 .f32)
    (p : Fin 4000) (h : Fin 128) :
    (maximumf
        (addf
          (matmul dot_S4000x128_S128x128_S4000x128_1_0_0_1_n_n none xb
            (shapeCast S128x128 w1 shapeCasts_S1x128x128_S128x128 : FVec Ideal S128x128 .bf16)
            (constant (F := Ideal) S4000x128 .f32 0x00000000#32))
          (broadcastTo S4000x128 (shapeCast S1x128 (shapeCast S128 b1 shapeCasts_S1x128_S128) shapeCasts_S128_S1x128)
            broadcasts_S1x128_S4000x128))
        (broadcast S4000x128 (Scalar.ofBits (F := Ideal) .f32 0x00000000#32)) : FVec Ideal S4000x128 .f32) (ix2 p h)
      = max ((∑ c : Fin 128, xb (ix2 p c) * w1 (ix3 (0 : Fin 1) c h)) + b1 (ix2 (0 : Fin 1) h)) 0 := by
  rw [maximumf_apply, addf_apply, matmul_zero_apply, bias_apply, broadcast_apply]
  refine congrArg₂ max (congrArg (· + b1 (ix2 (0 : Fin 1) h)) (Finset.sum_congr rfl fun c _ => ?_)) Ideal.ofBits_zero_f32
  rw [weights_apply]

/-- The kernel's value for one branch at row `p` and column `j` of a block is entry `j` of the branch applied to
    row `p` of the block. -/
theorem k0_pay2_apply (xb : FVec Ideal S4000x128 .bf16) (w1 : Vec Ideal S1x128x128 .bf16) (b1 : Vec Ideal S1x128 .f32)
    (w2 : Vec Ideal S1x128x128 .bf16) (b2 : Vec Ideal S1x128 .f32) (p : Fin 4000) (j : Fin 128) :
    k0_pay2 (F := Ideal) xb w1 b1 w2 b2 (ix2 p j)
      = Cert.Branch.mlpRow (fun c h => w1 (ix3 (0 : Fin 1) c h)) (fun h => b1 (ix2 (0 : Fin 1) h))
          (fun h j => w2 (ix3 (0 : Fin 1) h j)) (fun j => b2 (ix2 (0 : Fin 1) j)) (fun c => xb (ix2 p c)) j := by
  unfold k0_pay2 Cert.Branch.mlpRow
  rw [addf_apply, matmul_zero_apply, bias_apply]
  refine congrArg (· + b2 (ix2 (0 : Fin 1) j)) (Finset.sum_congr rfl fun h _ => ?_)
  rw [weights_apply, truncf_apply, hidden_apply]

/-! ## The other stored values are the same chain -/

section Cuts
variable {F : FTy → Type} [FloatOps F]

theorem k0_pay4_eq (v0 : Vec F S4000x128 .bf16) (v2 : Vec F S1x128x128 .bf16) (v4 : Vec F S1x128 .f32)
    (v13 : Vec F S1x128x128 .bf16) (v15 : Vec F S1x128 .f32) :
    k0_pay4 v0 v2 v4 v13 v15 = k0_pay2 (k0_pay3 v0) v2 v4 v13 v15 := rfl

theorem k0_pay6_eq (v0 : Vec F S4000x128 .bf16) (v22 : Vec F S1x128x128 .bf16) (v24 : Vec F S1x128 .f32)
    (v33 : Vec F S1x128x128 .bf16) (v35 : Vec F S1x128 .f32) :
    k0_pay6 (k0_pay5 v0 v22 v24) v33 v35 = k0_pay2 (k0_pay3 v0) v22 v24 v33 v35 := rfl

theorem k0_pay7_eq (v1 : FVec F S4000x128 .bf16) (v42 : Vec F S1x128x128 .bf16) (v44 : Vec F S1x128 .f32)
    (v53 : Vec F S1x128x128 .bf16) (v55 : Vec F S1x128 .f32) :
    k0_pay7 v1 v42 v44 v53 v55 = k0_pay2 v1 v42 v44 v53 v55 := rfl

theorem k0_pay9_eq (v1 : FVec F S4000x128 .bf16) (v62 : Vec F S1x128x128 .bf16) (v64 : Vec F S1x128 .f32)
    (v73 : Vec F S1x128x128 .bf16) (v75 : Vec F S1x128 .f32) :
    k0_pay9 v1 (k0_pay8 v62) v64 v73 v75 = k0_pay2 v1 v62 v64 v73 v75 := rfl

theorem k0_pay1_eq (v1 : FVec F S4000x128 .bf16) (v82 : Vec F S1x128x128 .bf16) (v84 : Vec F S1x128 .f32)
    (v93 : Vec F S1x128x128 .bf16) (v95 : Vec F S1x128 .f32) :
    k0_pay1 (k0_pay10 v1 v82 v84 v93) (k0_pay11 v95) = k0_pay2 v1 v82 v84 v93 v95 := rfl

/-- A block cast to its own shape is the block. -/
theorem k0_pay3_eq (v0 : Vec F S4000x128 .bf16) : k0_pay3 v0 = v0 := by
  unfold k0_pay3
  exact shapeCast_self v0 shapeCasts_S4000x128_S4000x128

/-- The same read at an index. -/
theorem k0_pay3_apply (v0 : Vec F S4000x128 .bf16) (p : Fin 4000) (c : Fin 128) : k0_pay3 v0 (ix2 p c) = v0 (ix2 p c) :=
  congrFun (k0_pay3_eq v0) (ix2 p c)

end Cuts

end Cert.KernelIdeal.BranchValue

end
-- ==== Proof.SlabReads.lean ====
/-
  Reading a table through the rectangle of one branch, and where a slab's local index lands in the block.

  A weight table holds six 128 x 128 matrices and a bias table six rows of 128; the rectangle at offset `(k, 0, 0)`
  (or `(k, 0)`) of unit extent on the first axis reads branch `k`'s matrix (or row). A slab of 128 columns at
  column offset `128 k` of a 4000 x 768 block sends its local index `(p, j)` to `(p, 128 k + j)`.
-/
import Idealize.ShloMosaic.Lib.Pipeline.Value
import Idealize.ShloMosaic.Lib.Pipeline.FrameBody
import Idealize.ShloMosaic.Lib.ValueIdx
noncomputable section
open Idealize.ShloMosaic Idealize.ShloMosaic.ValueIdx Idealize.SL.Sem

namespace Cert.SlabReads

abbrev T3 : Shape := ⟨3, ![6, 128, 128]⟩
abbrev T3s : Shape := ⟨3, ![1, 128, 128]⟩
abbrev T2 : Shape := ⟨2, ![6, 128]⟩
abbrev T2s : Shape := ⟨2, ![1, 128]⟩
abbrev O2 : Shape := ⟨2, ![4000, 768]⟩
abbrev O2s : Shape := ⟨2, ![4000, 128]⟩

theorem ld_table3 {Val : EltTy → Type} {e : EltTy} (off : Fin 3 → Nat) (inb : ∀ a, off a + T3s.size a ≤ T3.size a) (k : Fin 6) (h0 : off 0 = k.val) (h1 : off 1 = 0) (h2 : off 2 = 0)
    (X : T3.Idx → Val e) (c h : Fin 128) :
    View.ld X (Rect.unit (s := T3) off T3s.size inb) (ix3 (0 : Fin 1) c h) = X (ix3 k c h) := by
  show X ((Rect.unit (s := T3) off T3s.size inb).emb (ix3 (0 : Fin 1) c h)) = X (ix3 k c h)
  congr 1
  funext a
  apply Fin.ext
  match a with
  | ⟨0, _⟩ => simp only [Rect.emb_apply, Rect.off_unit, Rect.stride_unit]; show off 0 + 1 * 0 = k.val; omega
  | ⟨1, _⟩ => simp only [Rect.emb_apply, Rect.off_unit, Rect.stride_unit]; show off 1 + 1 * c.val = c.val; omega
  | ⟨2, _⟩ => simp only [Rect.emb_apply, Rect.off_unit, Rect.stride_unit]; show off 2 + 1 * h.val = h.val; omega

theorem ld_bias2 {Val : EltTy → Type} {e : EltTy} (off : Fin 2 → Nat) (inb : ∀ a, off a + T2s.size a ≤ T2.size a) (k : Fin 6) (h0 : off 0 = k.val) (h1 : off 1 = 0)
    (X : T2.Idx → Val e) (h : Fin 128) :
    View.ld X (Rect.unit (s := T2) off T2s.size inb) (ix2 (0 : Fin 1) h) = X (ix2 k h) := by
  show X ((Rect.unit (s := T2) off T2s.size inb).emb (ix2 (0 : Fin 1) h)) = X (ix2 k h)
  congr 1
  funext a
  apply Fin.ext
  match a with
  | ⟨0, _⟩ => simp only [Rect.emb_apply, Rect.off_unit, Rect.stride_unit]; show off 0 + 1 * 0 = k.val; omega
  | ⟨1, _⟩ => simp only [Rect.emb_apply, Rect.off_unit, Rect.stride_unit]; show off 1 + 1 * h.val = h.val; omega

theorem slab_emb (off : Fin 2 → Nat) (inb : ∀ a, off a + O2s.size a ≤ O2.size a) (k : Fin 6) (h0 : off 0 = 0) (h1 : off 1 = 128 * k.val)
    (x : O2s.Idx) :
    ((Rect.unit (s := O2) off O2s.size inb).emb x) 0 = x 0 ∧ (((Rect.unit (s := O2) off O2s.size inb).emb x) 1).val = 128 * k.val + (x 1).val := by
  constructor
  · apply Fin.ext
    simp only [Rect.emb_apply, Rect.off_unit, Rect.stride_unit]
    show off 0 + 1 * (x 0).val = (x 0).val; omega
  · simp only [Rect.emb_apply, Rect.off_unit, Rect.stride_unit]
    show off 1 + 1 * (x 1).val = 128 * k.val + (x 1).val; omega
end Cert.SlabReads

end
-- ==== Proof.KernelIdealBlock.lean ====
/-
  What one grid point leaves in its block of the node table, index by index.

  The body stores six slabs of 128 columns into the 4000 x 768 result block, slab `k` holding branch `k` of the
  block's 4000 node rows. So entry `(p, 128 k + j)` of the block is entry `j` of branch `k` applied to row `p`
  of the node block, with branch `k`'s matrices and bias rows read out of the four tables.
-/
import proofs.«143063_j85744727097473_2_alg».proof.Proof.KernelIdealAround
import proofs.«143063_j85744727097473_2_alg».proof.Proof.KernelBranch
import proofs.«143063_j85744727097473_2_alg».proof.Proof.SlabReads
import Idealize.ShloMosaic.Lib.Pipeline.Value

set_option maxRecDepth 16384

noncomputable section

namespace Cert.KernelIdeal.Block

open Cert.KernelIdeal Cert.KernelIdeal.Gen Cert.KernelIdeal.Around Cert.KernelIdeal.BranchValue
open Idealize.ShloMosaic Idealize.ShloMosaic.ValueIdx Idealize.SL.Sem Cert.SlabReads

/-- The branch a column of the 768 belongs to. -/
def kOf (y : S4000x768.Idx) : Fin 6 := ⟨(y 1).val / 128, by have h : (y 1).val < 768 := (y 1).isLt; omega⟩
/-- The column's place inside its branch's slab. -/
def jOf (y : S4000x768.Idx) : Fin 128 := ⟨(y 1).val % 128, Nat.mod_lt _ (by norm_num)⟩

/-- The block as one function of the five input blocks: entry `y` is entry `jOf y` of branch `kOf y` applied to row
    `y 0` of the node block. -/
def blockFn (x0 : Vec Ideal S4000x128 .bf16) (x1 : Vec Ideal S6x128x128 .bf16) (x2 : Vec Ideal S6x128 .f32) (x3 : Vec Ideal S6x128x128 .bf16) (x4 : Vec Ideal S6x128 .f32) :
    Vec Ideal S4000x768 .f32 := fun y =>
  Cert.Branch.mlpRow (fun c h => x1 (ix3 (kOf y) c h)) (fun h => x2 (ix2 (kOf y) h)) (fun h j => x3 (ix3 (kOf y) h j)) (fun j => x4 (ix2 (kOf y) j))
    (fun c => x0 (ix2 (y 0) c)) (jOf y)

/-- One slab's payload at a local index is the block function at the slab's place: the common shape of the six
    cases below. `w1`, `b1`, `w2`, `b2` are the branch's slices as the body loaded them. -/
theorem slab_apply (k : Fin 6) (x0 : Vec Ideal S4000x128 .bf16) (x1 : Vec Ideal S6x128x128 .bf16) (x2 : Vec Ideal S6x128 .f32) (x3 : Vec Ideal S6x128x128 .bf16) (x4 : Vec Ideal S6x128 .f32)
    (w1 : Vec Ideal S1x128x128 .bf16) (b1 : Vec Ideal S1x128 .f32) (w2 : Vec Ideal S1x128x128 .bf16) (b2 : Vec Ideal S1x128 .f32)
    (hw1 : ∀ c h, w1 (ix3 (0 : Fin 1) c h) = x1 (ix3 k c h)) (hb1 : ∀ h, b1 (ix2 (0 : Fin 1) h) = x2 (ix2 k h))
    (hw2 : ∀ h j, w2 (ix3 (0 : Fin 1) h j) = x3 (ix3 k h j)) (hb2 : ∀ j, b2 (ix2 (0 : Fin 1) j) = x4 (ix2 k j))
    (p : Fin 4000) (q : Fin 128) (y : S4000x768.Idx) (hy0 : y 0 = p) (hy1 : (y 1).val = 128 * k.val + q.val) :
    k0_pay2 (F := Ideal) (k0_pay3 (View.ld x0 rX)) w1 b1 w2 b2 (ix2 p q) = blockFn x0 x1 x2 x3 x4 y := by
  have hk : kOf y = k := Fin.ext (by show (y 1).val / 128 = k.val; have h : q.val < 128 := q.isLt; omega)
  have hj : jOf y = q := Fin.ext (by show (y 1).val % 128 = q.val; have h : q.val < 128 := q.isLt; omega)
  rw [k0_pay2_apply]
  unfold blockFn
  rw [hk, hj, hy0]
  simp only [hw1, hb1, hw2, hb2, k0_pay3_apply]
  have hx : ∀ c : Fin 128, (View.ld x0 rX) (ix2 p c) = x0 (ix2 p c) := fun c => by
    show x0 (rX.emb (ix2 p c)) = x0 (ix2 p c)
    congr 1
    funext a
    apply Fin.ext
    match a with
    | ⟨0, _⟩ => simp only [Rect.emb_apply, Rect.off_unit, Rect.stride_unit]; simp
    | ⟨1, _⟩ => simp only [Rect.emb_apply, Rect.off_unit, Rect.stride_unit]; simp
  simp only [hx]

/-- The canon of the body's six stores is the block function: each slab's payload is the block function at the
    slab's place, and the slabs cover the block. -/
theorem out0_5_eq (x0 : Vec Ideal S4000x128 .bf16) (x1 : Vec Ideal S6x128x128 .bf16) (x2 : Vec Ideal S6x128 .f32) (x3 : Vec Ideal S6x128x128 .bf16) (x4 : Vec Ideal S6x128 .f32) :
    out0_5 (F := Ideal) x0 x1 x2 x3 x4 = blockFn x0 x1 x2 x3 x4 := by
  funext y
  unfold out0_5
  refine View.canon_apply_of_pieces (blockFn x0 x1 x2 x3 x4) _ ?_ y (cover0_5 _ _ _ _ _ _ y)
  intro p hp
  simp only [List.mem_cons, List.mem_nil_iff, or_false] at hp
  rcases hp with rfl | rfl | rfl | rfl | rfl | rfl
  · intro x
    obtain ⟨p, q, rfl⟩ : ∃ (p : Fin 4000) (q : Fin 128), x = ix2 p q := ⟨x 0, x 1, eq_ix2 x⟩
    obtain ⟨e0, e1⟩ := slab_emb _ inb_S4000x768_S4000x128_0_640 (5 : Fin 6) rfl rfl (ix2 p q)
    exact slab_apply (5 : Fin 6) x0 x1 x2 x3 x4 _ _ _ _
      (fun c h => ld_table3 _ inb_S6x128x128_S1x128x128_5_0_0 (5 : Fin 6) rfl rfl rfl x1 c h)
      (fun h => ld_bias2 _ inb_S6x128_S1x128_5_0 (5 : Fin 6) rfl rfl x2 h)
      (fun h j => ld_table3 _ inb_S6x128x128_S1x128x128_5_0_0 (5 : Fin 6) rfl rfl rfl x3 h j)
      (fun j => ld_bias2 _ inb_S6x128_S1x128_5_0 (5 : Fin 6) rfl rfl x4 j)
      p q _ e0 e1
  · intro x
    obtain ⟨p, q, rfl⟩ : ∃ (p : Fin 4000) (q : Fin 128), x = ix2 p q := ⟨x 0, x 1, eq_ix2 x⟩
    obtain ⟨e0, e1⟩ := slab_emb _ inb_S4000x768_S4000x128_0_512 (4 : Fin 6) rfl rfl (ix2 p q)
    rw [k0_pay1_eq]
    exact slab_apply (4 : Fin 6) x0 x1 x2 x3 x4 _ _ _ _
      (fun c h => ld_table3 _ inb_S6x128x128_S1x128x128_4_0_0 (4 : Fin 6) rfl rfl rfl x1 c h)
      (fun h => ld_bias2 _ inb_S6x128_S1x128_4_0 (4 : Fin 6) rfl rfl x2 h)
      (fun h j => ld_table3 _ inb_S6x128x128_S1x128x128_4_0_0 (4 : Fin 6) rfl rfl rfl x3 h j)
      (fun j => ld_bias2 _ inb_S6x128_S1x128_4_0 (4 : Fin 6) rfl rfl x4 j)
      p q _ e0 e1
  · intro x
    obtain ⟨p, q, rfl⟩ : ∃ (p : Fin 4000) (q : Fin 128), x = ix2 p q := ⟨x 0, x 1, eq_ix2 x⟩
    obtain ⟨e0, e1⟩ := slab_emb _ inb_S4000x768_S4000x128_0_384 (3 : Fin 6) rfl rfl (ix2 p q)
    rw [k0_pay9_eq]
    exact slab_apply (3 : Fin 6) x0 x1 x2 x3 x4 _ _ _ _
      (fun c h => ld_table3 _ inb_S6x128x128_S1x128x128_3_0_0 (3 : Fin 6) rfl rfl rfl x1 c h)
      (fun h => ld_bias2 _ inb_S6x128_S1x128_3_0 (3 : Fin 6) rfl rfl x2 h)
      (fun h j => ld_table3 _ inb_S6x128x128_S1x128x128_3_0_0 (3 : Fin 6) rfl rfl rfl x3 h j)
      (fun j => ld_bias2 _ inb_S6x128_S1x128_3_0 (3 : Fin 6) rfl rfl x4 j)
      p q _ e0 e1
  · intro x
    obtain ⟨p, q, rfl⟩ : ∃ (p : Fin 4000) (q : Fin 128), x = ix2 p q := ⟨x 0, x 1, eq_ix2 x⟩
    obtain ⟨e0, e1⟩ := slab_emb _ inb_S4000x768_S4000x128_0_256 (2 : Fin 6) rfl rfl (ix2 p q)
    rw [k0_pay7_eq]
    exact slab_apply (2 : Fin 6) x0 x1 x2 x3 x4 _ _ _ _
      (fun c h => ld_table3 _ inb_S6x128x128_S1x128x128_2_0_0 (2 : Fin 6) rfl rfl rfl x1 c h)
      (fun h => ld_bias2 _ inb_S6x128_S1x128_2_0 (2 : Fin 6) rfl rfl x2 h)
      (fun h j => ld_table3 _ inb_S6x128x128_S1x128x128_2_0_0 (2 : Fin 6) rfl rfl rfl x3 h j)
      (fun j => ld_bias2 _ inb_S6x128_S1x128_2_0 (2 : Fin 6) rfl rfl x4 j)
      p q _ e0 e1
  · intro x
    obtain ⟨p, q, rfl⟩ : ∃ (p : Fin 4000) (q : Fin 128), x = ix2 p q := ⟨x 0, x 1, eq_ix2 x⟩
    obtain ⟨e0, e1⟩ := slab_emb _ inb_S4000x768_S4000x128_0_128 (1 : Fin 6) rfl rfl (ix2 p q)
    rw [k0_pay6_eq]
    exact slab_apply (1 : Fin 6) x0 x1 x2 x3 x4 _ _ _ _
      (fun c h => ld_table3 _ inb_S6x128x128_S1x128x128_1_0_0 (1 : Fin 6) rfl rfl rfl x1 c h)
      (fun h => ld_bias2 _ inb_S6x128_S1x128_1_0 (1 : Fin 6) rfl rfl x2 h)
      (fun h j => ld_table3 _ inb_S6x128x128_S1x128x128_1_0_0 (1 : Fin 6) rfl rfl rfl x3 h j)
      (fun j => ld_bias2 _ inb_S6x128_S1x128_1_0 (1 : Fin 6) rfl rfl x4 j)
      p q _ e0 e1
  · intro x
    obtain ⟨p, q, rfl⟩ : ∃ (p : Fin 4000) (q : Fin 128), x = ix2 p q := ⟨x 0, x 1, eq_ix2 x⟩
    obtain ⟨e0, e1⟩ := slab_emb _ inb_S4000x768_S4000x128_0_0 (0 : Fin 6) rfl rfl (ix2 p q)
    rw [k0_pay4_eq]
    exact slab_apply (0 : Fin 6) x0 x1 x2 x3 x4 _ _ _ _
      (fun c h => ld_table3 _ inb_S6x128x128_S1x128x128_0_0_0 (0 : Fin 6) rfl rfl rfl x1 c h)
      (fun h => ld_bias2 _ inb_S6x128_S1x128_0_0 (0 : Fin 6) rfl rfl x2 h)
      (fun h j => ld_table3 _ inb_S6x128x128_S1x128x128_0_0_0 (0 : Fin 6) rfl rfl rfl x3 h j)
      (fun j => ld_bias2 _ inb_S6x128_S1x128_0_0 (0 : Fin 6) rfl rfl x4 j)
      p q _ e0 e1

end Cert.KernelIdeal.Block

end
-- ==== Proof.NodeTableSpec.lean ====
/-
  The node table: every branch applied to every node row.

  The kernel's region fills a 100000 x 768 table whose entry `(n, 128 k + j)` is entry `j` of branch `k` applied to
  node row `n`. Stated here over literal shapes, with no program in sight, so that both programs' sides can cite it.
-/
import proofs.«143063_j85744727097473_2_alg».proof.Proof.BranchSpec

noncomputable section

namespace Cert.NodeTable

open Idealize.ShloMosaic Idealize.ShloMosaic.ValueIdx

/-- The branch a column of the 768 belongs to. -/
def kCol (i : (⟨2, ![100000, 768]⟩ : Shape).Idx) : Fin 6 := ⟨(i 1).val / 128, by have h : (i 1).val < 768 := (i 1).isLt; omega⟩
/-- The column's place in its branch's slab of 128. -/
def jCol (i : (⟨2, ![100000, 768]⟩ : Shape).Idx) : Fin 128 := ⟨(i 1).val % 128, Nat.mod_lt _ (by norm_num)⟩

/-- The node table as one function of the node rows and the four tables: entry `i = (n, 128 k + j)` is entry `j` of
    branch `k` applied to row `n`. -/
def nodeTable (x : (⟨2, ![100000, 128]⟩ : Shape).Idx → EReal) (W1 : (⟨3, ![6, 128, 128]⟩ : Shape).Idx → EReal) (b1 : (⟨2, ![6, 128]⟩ : Shape).Idx → EReal)
    (W2 : (⟨3, ![6, 128, 128]⟩ : Shape).Idx → EReal) (b2 : (⟨2, ![6, 128]⟩ : Shape).Idx → EReal) : (⟨2, ![100000, 768]⟩ : Shape).Idx → EReal := fun i =>
  Cert.Branch.mlpRow (fun c h => W1 (ix3 (kCol i) c h)) (fun h => b1 (ix2 (kCol i) h)) (fun h j => W2 (ix3 (kCol i) h j)) (fun j => b2 (ix2 (kCol i) j))
    (fun c => x (ix2 (i 0) c)) (jCol i)

end Cert.NodeTable

end
-- ==== Proof.KernelIdealTable.lean ====
/-
  The node table after the region, in closed form.

  Point `t` of the grid stages node rows `4000 t … 4000 t + 3999`, the four tables whole, and writes back rows
  `4000 t … 4000 t + 3999` of the 100000 x 768 node table. What it writes back is the block function of its input
  blocks (KernelIdealBlock), which is the restriction to those rows of ONE function of the arrays: entry
  `(n, 128 k + j)` is entry `j` of branch `k` applied to node row `n`. The 25 blocks cover the table, so the table ends
  at that function.
-/
import proofs.«143063_j85744727097473_2_alg».proof.Proof.KernelIdealBlock
import proofs.«143063_j85744727097473_2_alg».proof.Proof.NodeTableSpec
import Idealize.ShloMosaic.Lib.Pipeline.Value
import Idealize.ShloMosaic.Lib.StableHlo.Run

set_option maxRecDepth 16384

noncomputable section

namespace Cert.KernelIdeal.Table

open Cert.KernelIdeal Cert.KernelIdeal.Gen Cert.KernelIdeal.Around Cert.KernelIdeal.Block
open Idealize.ShloMosaic Idealize.ShloMosaic.TcCoe Idealize.ShloMosaic.ValueIdx Idealize.SL.Sem
open Idealize.ShloMosaic.Pipeline (Dat)
open Cert.NodeTable

variable (m : (ℓ : Loc nD τ sig) → Buf (Elt Ideal) ℓ) (ρ : Dev nD → PrngReg)

/-- The table of the arrays as the region finds them. -/
def tableAt (c : Dev nD) : S100000x768.Idx → EReal :=
  nodeTable (V m c (Pipeline.arrRef spec0 0)) (V m c (Pipeline.arrRef spec0 1)) (V m c (Pipeline.arrRef spec0 2)) (V m c (Pipeline.arrRef spec0 3)) (V m c (Pipeline.arrRef spec0 4))

/-- The printed index maps, decided over the grid: the node block and the result block sit at row block `t`, column
    block 0; every table at block 0 on every axis. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- The node block at point `t` is rows `4000 t + p` of the node array. -/
theorem iblk0_apply (c : Dev nD) (t : Fin cfg0.N) (p : Fin 4000) (q : Fin 128) (n : Fin 100000) (hn : n.val = 4000 * t.val + p.val) :
    (iblk m c 0 t : Vec Ideal S4000x128 .bf16) (ix2 p q) = (V m c (Pipeline.arrRef spec0 0) : S100000x128.Idx → EReal) (ix2 n q) := by
  obtain ⟨e0, e1, -⟩ := idx_facts t
  unfold iblk
  rw [View.read_apply]
  refine congrArg (V m c (Pipeline.arrRef spec0 0) : S100000x128.Idx → EReal) ?_
  funext a
  apply Fin.ext
  match a with
  | ⟨0, _⟩ => show win0_0.index t (0 : Fin 2) * 4000 + 1 * p.val = n.val; rw [e0, hn]; omega
  | ⟨1, _⟩ => show win0_0.index t (1 : Fin 2) * 128 + 1 * q.val = q.val; rw [e1]; omega

/-- A weight table's block at any point is the table. -/
theorem iblk1_apply (c : Dev nD) (t : Fin cfg0.N) (k : Fin 6) (a b : Fin 128) :
    (iblk m c 1 t : Vec Ideal S6x128x128 .bf16) (ix3 k a b) = (V m c (Pipeline.arrRef spec0 1) : S6x128x128.Idx → EReal) (ix3 k a b) := by
  obtain ⟨-, -, -, -, e0, e1, e2, -⟩ := idx_facts t
  unfold iblk
  rw [View.read_apply]
  refine congrArg (V m c (Pipeline.arrRef spec0 1) : S6x128x128.Idx → EReal) ?_
  funext d
  apply Fin.ext
  match d with
  | ⟨0, _⟩ => show win0_1.index t (0 : Fin 3) * 6 + 1 * k.val = k.val; rw [e0]; omega
  | ⟨1, _⟩ => show win0_1.index t (1 : Fin 3) * 128 + 1 * a.val = a.val; rw [e1]; omega
  | ⟨2, _⟩ => show win0_1.index t (2 : Fin 3) * 128 + 1 * b.val = b.val; rw [e2]; omega
theorem iblk3_apply (c : Dev nD) (t : Fin cfg0.N) (k : Fin 6) (a b : Fin 128) :
    (iblk m c 3 t : Vec Ideal S6x128x128 .bf16) (ix3 k a b) = (V m c (Pipeline.arrRef spec0 3) : S6x128x128.Idx → EReal) (ix3 k a b) := by
  obtain ⟨-, -, -, -, -, -, -, -, -, e0, e1, e2, -⟩ := idx_facts t
  unfold iblk
  rw [View.read_apply]
  refine congrArg (V m c (Pipeline.arrRef spec0 3) : S6x128x128.Idx → EReal) ?_
  funext d
  apply Fin.ext
  match d with
  | ⟨0, _⟩ => show win0_3.index t (0 : Fin 3) * 6 + 1 * k.val = k.val; rw [e0]; omega
  | ⟨1, _⟩ => show win0_3.index t (1 : Fin 3) * 128 + 1 * a.val = a.val; rw [e1]; omega
  | ⟨2, _⟩ => show win0_3.index t (2 : Fin 3) * 128 + 1 * b.val = b.val; rw [e2]; omega
/-- A bias table's block at any point is the table. -/
theorem iblk2_apply (c : Dev nD) (t : Fin cfg0.N) (k : Fin 6) (a : Fin 128) :
    (iblk m c 2 t : Vec Ideal S6x128 .f32) (ix2 k a) = (V m c (Pipeline.arrRef spec0 2) : S6x128.Idx → EReal) (ix2 k a) := by
  obtain ⟨-, -, -, -, -, -, -, e0, e1, -⟩ := idx_facts t
  unfold iblk
  rw [View.read_apply]
  refine congrArg (V m c (Pipeline.arrRef spec0 2) : S6x128.Idx → EReal) ?_
  funext d
  apply Fin.ext
  match d with
  | ⟨0, _⟩ => show win0_2.index t (0 : Fin 2) * 6 + 1 * k.val = k.val; rw [e0]; omega
  | ⟨1, _⟩ => show win0_2.index t (1 : Fin 2) * 128 + 1 * a.val = a.val; rw [e1]; omega
theorem iblk4_apply (c : Dev nD) (t : Fin cfg0.N) (k : Fin 6) (a : Fin 128) :
    (iblk m c 4 t : Vec Ideal S6x128 .f32) (ix2 k a) = (V m c (Pipeline.arrRef spec0 4) : S6x128.Idx → EReal) (ix2 k a) := by
  obtain ⟨-, -, -, -, -, -, -, -, -, -, -, -, e0, e1⟩ := idx_facts t
  unfold iblk
  rw [View.read_apply]
  refine congrArg (V m c (Pipeline.arrRef spec0 4) : S6x128.Idx → EReal) ?_
  funext d
  apply Fin.ext
  match d with
  | ⟨0, _⟩ => show win0_4.index t (0 : Fin 2) * 6 + 1 * k.val = k.val; rw [e0]; omega
  | ⟨1, _⟩ => show win0_4.index t (1 : Fin 2) * 128 + 1 * a.val = a.val; rw [e1]; omega

/-- What point `t` writes back is block `t` of the table. -/
theorem flushed_eq (c : Dev nD) (t : Fin cfg0.N) :
    (dats m 0 c).flushed 5 t = ((cfg0.win 5).blk t).view.read (Elt Ideal) (tableAt m c) := by
  show (cfg0.win 5).cut (grid0.coords t) ((dats m 0 c).after 5 t) = _
  rw [after0_5, out0_5_eq]
  obtain ⟨-, -, e0, e1, -⟩ := idx_facts t
  funext y
  have ht : t.val < 25 := lt_of_lt_of_eq t.isLt N_0
  have hy0 : (y 0).val < 4000 := (y 0).isLt
  have hy1 : (y 1).val < 768 := (y 1).isLt
  show blockFn (iblk m c 0 t) (iblk m c 1 t) (iblk m c 2 t) (iblk m c 3 t) (iblk m c 4 t) y = tableAt m c (((cfg0.win 5).blk t).view.emb y)
  have h0 : ((((cfg0.win 5).blk t).view.emb y) 0).val = 4000 * t.val + (y 0).val := by
    show win0_5.index t (0 : Fin 2) * 4000 + 1 * (y 0).val = _; rw [e0]; omega
  have h1 : ((((cfg0.win 5).blk t).view.emb y) 1).val = (y 1).val := by
    show win0_5.index t (1 : Fin 2) * 768 + 1 * (y 1).val = _; rw [e1]; omega
  have hk : kCol (((cfg0.win 5).blk t).view.emb y) = kOf y := Fin.ext (by show _ / 128 = _ / 128; rw [h1])
  have hj : jCol (((cfg0.win 5).blk t).view.emb y) = jOf y := Fin.ext (by show _ % 128 = _ % 128; rw [h1])
  unfold blockFn tableAt nodeTable
  rw [hk, hj]
  simp only [iblk1_apply, iblk2_apply, iblk3_apply, iblk4_apply]
  have hx : ∀ q : Fin 128, (iblk m c 0 t : Vec Ideal S4000x128 .bf16) (ix2 (y 0) q)
      = (V m c (Pipeline.arrRef spec0 0) : S100000x128.Idx → EReal) (ix2 ((((cfg0.win 5).blk t).view.emb y) 0) q) :=
    fun q => iblk0_apply m c t (y 0) q _ h0
  simp only [hx]

/-- An index of the table is in point `t`'s block iff each coordinate is in the block's range on its axis. -/
theorem mem_blk (t : Fin cfg0.N) (i : S100000x768.Idx) :
    i ∈ ((cfg0.win 5).blk t).view.set ↔ ∀ a : Fin 2, win0_5.index t a * S4000x768.size a ≤ (i a).val ∧ (i a).val < win0_5.index t a * S4000x768.size a + S4000x768.size a := by
  show i ∈ ((View.whole main_v3).slice (win0_5.rect t)).set ↔ _
  rw [View.set_slice_whole, Rect.mem_set_unit]
  exact Iff.rfl

/-- The table after the run: the 25 row blocks cover it (row `n` is in block `n / 4000`). -/
theorem final (c : Dev nD) : (dats m 0 c).arrAt 5 cfg0.N = tableAt m c :=
  (dats m 0 c).arrAt_eq_of_cover 5 (tableAt m c) (fun t _ => flushed_eq m c t) fun i => by
    have hi0 : (i 0).val < 100000 := (i 0).isLt
    have hi1 : (i 1).val < 768 := (i 1).isLt
    have hN : cfg0.N = 25 := N_0
    let t : Fin cfg0.N := ⟨(i 0).val / 4000, by rw [hN]; omega⟩
    obtain ⟨-, -, e0, e1, -⟩ := idx_facts t
    refine ⟨t, flush0_5 t, ?_⟩
    rw [mem_blk]
    intro a
    match a with
    | ⟨0, _⟩ => show win0_5.index t (0 : Fin 2) * 4000 ≤ (i 0).val ∧ (i 0).val < win0_5.index t (0 : Fin 2) * 4000 + 4000
                rw [e0]; show (i 0).val / 4000 * 4000 ≤ (i 0).val ∧ (i 0).val < (i 0).val / 4000 * 4000 + 4000; omega
    | ⟨1, _⟩ => show win0_5.index t (1 : Fin 2) * 768 ≤ (i 1).val ∧ (i 1).val < win0_5.index t (1 : Fin 2) * 768 + 768
                rw [e1]; omega

end Cert.KernelIdeal.Table

end
-- ==== Proof.KernelIdealRun.lean ====
/-
  The idealized kernel's run, read: its result as one term of the arguments.

  After the region the 83 later lines read the node table and the index array only: for each branch `k` they take
  column `k` of the index array, move negative indices up by the number of nodes, gather the rows those indices name
  out of slab `k` of the node table, multiply the six gathered slabs entry by entry, and add the rows of the product
  into a zero table at the rows column 0 of the index array names. `tailTerm` is that composed term; the run ends with
  the result buffer at `tailTerm` of the node table in closed form and the arguments as launched.
-/
import proofs.«143063_j85744727097473_2_alg».proof.Proof.KernelIdealTable
import Idealize.ShloMosaic.Lib.StableHlo.Run

set_option maxRecDepth 16384

noncomputable section

namespace Cert.KernelIdeal.Tail

open Cert.KernelIdeal Cert.KernelIdeal.Gen Cert.KernelIdeal.Around Cert.KernelIdeal.Table
open Idealize.ShloMosaic Idealize.ShloMosaic.TcCoe Idealize.SL.Sem Idealize.ShloMosaic.StableHlo
open Idealize.ShloMosaic.Pipeline (Dat)
open Cert.NodeTable

section AnyF
variable {F : FTy → Type} [FloatOps F]

set_option maxHeartbeats 4000000 in
/-- The later lines' result as a term of the node table `Y` and the index array `I`. -/
def tailTerm (Y : (⟨S100000x768, .f32⟩ : BufTy).Contents (Elt F)) (I : (⟨S500000x6, .i32⟩ : BufTy).Contents (Elt F)) :
    (⟨S100000x128, .f32⟩ : BufTy).Contents (Elt F) :=
  Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S500000x1 ![0, 0] I slices_S500000x6_S500000x1_0_0) shapeCasts_S500000x1_S500000)) (mulf (mulf (mulf (mulf (mulf (Host.gather gather_S100000x128_S500000x1_S500000x128_1_0_n_n_0_1_1128 (extractStridedSlice S100000x128 ![0, 0] Y slices_S100000x768_S100000x128_0_0) (broadcastInDim S500000x1 ![0] bcast_S500000_S500000x1_0 (select (cmpi .slt (shapeCast _ (extractStridedSlice S500000x1 ![0, 0] I slices_S500000x6_S500000x1_0_0) shapeCasts_S500000x1_S500000) (broadcastInDim S500000 ![] bcast_S_S500000 (constantI S_ 32 0#32))) (addi (shapeCast _ (extractStridedSlice S500000x1 ![0, 0] I slices_S500000x6_S500000x1_0_0) shapeCasts_S500000x1_S500000) (broadcastInDim S500000 ![] bcast_S_S500000 (constantI S_ 32 100000#32))) (shapeCast _ (extractStridedSlice S500000x1 ![0, 0] I slices_S500000x6_S500000x1_0_0) shapeCasts_S500000x1_S500000)))) (Host.gather gather_S100000x128_S500000x1_S500000x128_1_0_n_n_0_1_1128 (extractStridedSlice S100000x128 ![0, 128] Y slices_S100000x768_S100000x128_0_128) (broadcastInDim S500000x1 ![0] bcast_S500000_S500000x1_0 (select (cmpi .slt (shapeCast _ (extractStridedSlice S500000x1 ![0, 1] I slices_S500000x6_S500000x1_0_1) shapeCasts_S500000x1_S500000) (broadcastInDim S500000 ![] bcast_S_S500000 (constantI S_ 32 0#32))) (addi (shapeCast _ (extractStridedSlice S500000x1 ![0, 1] I slices_S500000x6_S500000x1_0_1) shapeCasts_S500000x1_S500000) (broadcastInDim S500000 ![] bcast_S_S500000 (constantI S_ 32 100000#32))) (shapeCast _ (extractStridedSlice S500000x1 ![0, 1] I slices_S500000x6_S500000x1_0_1) shapeCasts_S500000x1_S500000))))) (Host.gather gather_S100000x128_S500000x1_S500000x128_1_0_n_n_0_1_1128 (extractStridedSlice S100000x128 ![0, 256] Y slices_S100000x768_S100000x128_0_256) (broadcastInDim S500000x1 ![0] bcast_S500000_S500000x1_0 (select (cmpi .slt (shapeCast _ (extractStridedSlice S500000x1 ![0, 2] I slices_S500000x6_S500000x1_0_2) shapeCasts_S500000x1_S500000) (broadcastInDim S500000 ![] bcast_S_S500000 (constantI S_ 32 0#32))) (addi (shapeCast _ (extractStridedSlice S500000x1 ![0, 2] I slices_S500000x6_S500000x1_0_2) shapeCasts_S500000x1_S500000) (broadcastInDim S500000 ![] bcast_S_S500000 (constantI S_ 32 100000#32))) (shapeCast _ (extractStridedSlice S500000x1 ![0, 2] I slices_S500000x6_S500000x1_0_2) shapeCasts_S500000x1_S500000))))) (Host.gather gather_S100000x128_S500000x1_S500000x128_1_0_n_n_0_1_1128 (extractStridedSlice S100000x128 ![0, 384] Y slices_S100000x768_S100000x128_0_384) (broadcastInDim S500000x1 ![0] bcast_S500000_S500000x1_0 (select (cmpi .slt (shapeCast _ (extractStridedSlice S500000x1 ![0, 3] I slices_S500000x6_S500000x1_0_3) shapeCasts_S500000x1_S500000) (broadcastInDim S500000 ![] bcast_S_S500000 (constantI S_ 32 0#32))) (addi (shapeCast _ (extractStridedSlice S500000x1 ![0, 3] I slices_S500000x6_S500000x1_0_3) shapeCasts_S500000x1_S500000) (broadcastInDim S500000 ![] bcast_S_S500000 (constantI S_ 32 100000#32))) (shapeCast _ (extractStridedSlice S500000x1 ![0, 3] I slices_S500000x6_S500000x1_0_3) shapeCasts_S500000x1_S500000))))) (Host.gather gather_S100000x128_S500000x1_S500000x128_1_0_n_n_0_1_1128 (extractStridedSlice S100000x128 ![0, 512] Y slices_S100000x768_S100000x128_0_512) (broadcastInDim S500000x1 ![0] bcast_S500000_S500000x1_0 (select (cmpi .slt (shapeCast _ (extractStridedSlice S500000x1 ![0, 4] I slices_S500000x6_S500000x1_0_4) shapeCasts_S500000x1_S500000) (broadcastInDim S500000 ![] bcast_S_S500000 (constantI S_ 32 0#32))) (addi (shapeCast _ (extractStridedSlice S500000x1 ![0, 4] I slices_S500000x6_S500000x1_0_4) shapeCasts_S500000x1_S500000) (broadcastInDim S500000 ![] bcast_S_S500000 (constantI S_ 32 100000#32))) (shapeCast _ (extractStridedSlice S500000x1 ![0, 4] I slices_S500000x6_S500000x1_0_4) shapeCasts_S500000x1_S500000))))) (Host.gather gather_S100000x128_S500000x1_S500000x128_1_0_n_n_0_1_1128 (extractStridedSlice S100000x128 ![0, 640] Y slices_S100000x768_S100000x128_0_640) (broadcastInDim S500000x1 ![0] bcast_S500000_S500000x1_0 (select (cmpi .slt (shapeCast _ (extractStridedSlice S500000x1 ![0, 5] I slices_S500000x6_S500000x1_0_5) shapeCasts_S500000x1_S500000) (broadcastInDim S500000 ![] bcast_S_S500000 (constantI S_ 32 0#32))) (addi (shapeCast _ (extractStridedSlice S500000x1 ![0, 5] I slices_S500000x6_S500000x1_0_5) shapeCasts_S500000x1_S500000) (broadcastInDim S500000 ![] bcast_S_S500000 (constantI S_ 32 100000#32))) (shapeCast _ (extractStridedSlice S500000x1 ![0, 5] I slices_S500000x6_S500000x1_0_5) shapeCasts_S500000x1_S500000)))))

set_option maxHeartbeats 80000000 in
/-- The 83 later lines, from any contents `W` of the buffers, leave the result buffer at `tailTerm` of what `W` holds
    at the node table and at the index array. -/
theorem tail_of (W : Valuation τ sig (Elt F)) :
    StableHlo.after hostOps1 W (Proc.devRef .tc main_v73) = tailTerm (W (Proc.devRef .tc main_v3)) (W (Proc.devRef .tc main_arg1)) := by
  after_results_simp <;> rfl <;> (unfold tailTerm; rfl)

end AnyF

variable (m : (ℓ : Loc nD τ sig) → Buf (Elt Ideal) ℓ) (ρ : Dev nD → PrngReg)

/-- The three format changes before the region are the identity over the extended reals: the region finds the node
    array and the two weight tables at their launch contents. -/
theorem V_v0 (c : Dev nD) : (V m c main_v0 : S100000x128.Idx → EReal) = (m ((c.tc : Thread nD τ).loc main_arg0) : S100000x128.Idx → EReal) := by
  show StableHlo.after hostOps0 (fun b => m (c, b)) (Proc.devRef .tc main_v0) = _
  after_results
  rfl
theorem V_v1 (c : Dev nD) : (V m c main_v1 : S6x128x128.Idx → EReal) = (m ((c.tc : Thread nD τ).loc main_arg2) : S6x128x128.Idx → EReal) := by
  show StableHlo.after hostOps0 (fun b => m (c, b)) (Proc.devRef .tc main_v1) = _
  after_results
  rfl
theorem V_v2 (c : Dev nD) : (V m c main_v2 : S6x128x128.Idx → EReal) = (m ((c.tc : Thread nD τ).loc main_arg4) : S6x128x128.Idx → EReal) := by
  show StableHlo.after hostOps0 (fun b => m (c, b)) (Proc.devRef .tc main_v2) = _
  after_results
  rfl

/-- So the node table the region leaves is the node table of the launched arguments. -/
theorem table_eq (c : Dev nD) : tableAt m c = nodeTable (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5)) := by
  unfold tableAt
  have e0 := V_v0 m c
  have e1 := V_v1 m c
  have e2 : (V m c main_arg3 : S6x128.Idx → EReal) = m ((c.tc : Thread nD τ).loc main_arg3) := V_arg m main_arg3 (by simp only [true_or, or_true]) c
  have e3 := V_v2 m c
  have e4 : (V m c main_arg5 : S6x128.Idx → EReal) = m ((c.tc : Thread nD τ).loc main_arg5) := V_arg m main_arg5 (by simp only [or_true]) c
  show nodeTable (V m c main_v0) (V m c main_v1) (V m c main_arg3) (V m c main_v2) (V m c main_arg5) = _
  rw [e0, e1, e2, e3, e4]

set_option maxHeartbeats 40000000 in
/-- After the run the result buffer holds `tailTerm` of the node table in closed form and the launched index array. -/
theorem tail_eq (c : Dev nD) :
    Pipeline.afterTail₀ cfgs (dats m) 0 (V0 m) [hostOps1] c main_v73
      = tailTerm (F := Ideal) (tableAt m c) (m ((c.tc : Thread nD τ).loc main_arg1)) := by
  have hY : Pipeline.withArrays spec0 c (V0 m c) (fun w => (dats m 0 c).arrAt w cfg0.N) (Proc.devRef .tc main_v3) = tableAt m c :=
    (Pipeline.withArrays_arr spec0 launch0.win.arr_inj c (V0 m c) _ 5).trans (final m c)
  have hI : Pipeline.withArrays spec0 c (V0 m c) (fun w => (dats m 0 c).arrAt w cfg0.N) (Proc.devRef .tc main_arg1) = m ((c.tc : Thread nD τ).loc main_arg1) :=
    (Pipeline.withArrays_of_ne spec0 c (V0 m c) _ main_arg1 (by decide)).trans (V_arg m main_arg1 (by simp only [true_or, or_true]) c)
  unfold Pipeline.afterTail₀
  show StableHlo.after hostOps1 (Pipeline.withArrays spec0 c (V0 m c) (fun w => (dats m 0 c).arrAt w cfg0.N)) (Proc.devRef .tc main_v73) = _
  rw [tail_of, hY, hI]

set_option maxHeartbeats 40000000 in
/-- The idealized kernel's run: the result at `tailTerm` of the node table, the six arguments as launched. -/
theorem run : θ_run defs (onTc (τ := τ) (main (F := Ideal))) ⟨m, fun _ => 0, ρ⟩ fun r => ∀ c : Dev nD,
      r.2.mem ((c.tc : Thread nD τ).loc main_v73) = tailTerm (F := Ideal) (tableAt m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v73 (Pipeline.mem_restRefs_of main_v73 (by decide) (by decide))).trans (tail_eq m c),
     ((h c).2 main_arg0 (Pipeline.mem_restRefs_of main_arg0 (by decide) (by decide))).trans (W_arg m main_arg0 (by simp only [true_or]) (dats m) c),
     ((h c).2 main_arg1 (Pipeline.mem_restRefs_of main_arg1 (by decide) (by decide))).trans (W_arg m main_arg1 (by simp only [true_or, or_true]) (dats m) c),
     ((h c).2 main_arg2 (Pipeline.mem_restRefs_of main_arg2 (by decide) (by decide))).trans (W_arg m main_arg2 (by simp only [true_or, or_true]) (dats m) c),
     ((h c).1 2).trans (((dats m 0 c).arrAt_in 2 rfl _).trans ((A_eq m c 2).trans (V_arg m main_arg3 (by simp only [true_or, or_true]) c))),
     ((h c).2 main_arg4 (Pipeline.mem_restRefs_of main_arg4 (by decide) (by decide))).trans (W_arg m main_arg4 (by simp only [or_true]) (dats m) c),
     ((h c).1 4).trans (((dats m 0 c).arrAt_in 4 rfl _).trans ((A_eq m c 4).trans (V_arg m main_arg5 (by simp only [or_true]) c)))⟩)
    (run_main m ρ)

end Cert.KernelIdeal.Tail

end
-- ==== Proof.RefBranch.lean ====
/-
  One branch of the reference at an index.

  For one branch the reference takes the gathered rows, multiplies them by the branch's first weights, adds the
  first bias laid along every row, takes the ramp against zero, multiplies by the second weights and adds the second
  bias. Read at row `e` and column `j` this is entry `j` of the branch applied to gathered row `e`. The weights and
  biases enter already cut out of their stacks of six, so the one statement serves every branch.
-/
import proofs.«143063_j85744727097473_2_alg».proof.Proof.Gen.ReferenceIdeal
import proofs.«143063_j85744727097473_2_alg».proof.Proof.BranchSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.BranchValue

open Cert.ReferenceIdeal Cert.ReferenceIdeal.Gen Idealize.ShloMosaic Idealize.ShloMosaic.ValueIdx Idealize.SL.Sem

/-- One branch of the reference on the gathered rows `G`, with the branch's weights and biases `w1s`, `b1s`, `w2s`,
    `b2s` already cut out of their stacks: two linear layers with the ramp between them. -/
def refBranch (G : (⟨S500000x128, .f32⟩ : BufTy).Contents (Elt Ideal))
    (w1s : (⟨S1x128x128, .f32⟩ : BufTy).Contents (Elt Ideal)) (b1s : (⟨S1x128, .f32⟩ : BufTy).Contents (Elt Ideal))
    (w2s : (⟨S1x128x128, .f32⟩ : BufTy).Contents (Elt Ideal)) (b2s : (⟨S1x128, .f32⟩ : BufTy).Contents (Elt Ideal)) :
    (⟨S500000x128, .f32⟩ : BufTy).Contents (Elt Ideal) :=
  addf (F := Ideal) (φ := .f32)
    (Host.dotGeneral (F := Ideal) (φ₁ := .f32) (φ₂ := .f32) dot_S500000x128_S128x128_S500000x128_1_0_0_1_n_n none
      (maximumf (F := Ideal) (φ := .f32)
        (addf (F := Ideal) (φ := .f32)
          (Host.dotGeneral (F := Ideal) (φ₁ := .f32) (φ₂ := .f32) dot_S500000x128_S128x128_S500000x128_1_0_0_1_n_n none G
            (shapeCast _ w1s shapeCasts_S1x128x128_S128x128))
          (broadcastInDim S500000x128 ![0, 1] bcast_S1x128_S500000x128_0_1
            (broadcastInDim S1x128 ![1] bcast_S128_S1x128_1 (shapeCast _ b1s shapeCasts_S1x128_S128))))
        (broadcastInDim S500000x128 ![] bcast_S_S500000x128 (constant (F := Ideal) S_ .f32 0x00000000#32)))
      (shapeCast _ w2s shapeCasts_S1x128x128_S128x128))
    (broadcastInDim S500000x128 ![0, 1] bcast_S1x128_S500000x128_0_1
      (broadcastInDim S1x128 ![1] bcast_S128_S1x128_1 (shapeCast _ b2s shapeCasts_S1x128_S128)))

/-! ## The operand indices of the 500000×128 by 128×128 product -/

/-- The left operand's row is the output's row. -/
theorem lhs_row (i : S500000x128.Idx) (q : dot_S500000x128_S128x128_S500000x128_1_0_0_1_n_n.contr.Idx) : (dot_S500000x128_S128x128_S500000x128_1_0_0_1_n_n.lhsIdx i q 0).val = (i 0).val := by
  unfold DotDims.lhsIdx
  rw [dif_neg (show ¬(0 : Fin S500000x128.rank) ∈ dot_S500000x128_S128x128_S500000x128_1_0_0_1_n_n.lhsBatch by decide),
    dif_pos (show (0 : Fin S500000x128.rank) ∈ dot_S500000x128_S128x128_S500000x128_1_0_0_1_n_n.lhsNonContracting by decide)]
  rfl

/-- The left operand's column is the contraction position. -/
theorem lhs_col (i : S500000x128.Idx) (q : dot_S500000x128_S128x128_S500000x128_1_0_0_1_n_n.contr.Idx) :
    (dot_S500000x128_S128x128_S500000x128_1_0_0_1_n_n.lhsIdx i q 1).val = (q ⟨0, by decide⟩).val :=
  dot_S500000x128_S128x128_S500000x128_1_0_0_1_n_n.lhsIdx_val_of_single rfl i q

/-- The right operand's row is the contraction position. -/
theorem rhs_row (i : S500000x128.Idx) (q : dot_S500000x128_S128x128_S500000x128_1_0_0_1_n_n.contr.Idx) :
    (dot_S500000x128_S128x128_S500000x128_1_0_0_1_n_n.rhsIdx i q 0).val = (q ⟨0, by decide⟩).val :=
  dot_S500000x128_S128x128_S500000x128_1_0_0_1_n_n.rhsIdx_val_of_single rfl i q

/-- The right operand's column is the output's column. -/
theorem rhs_col (i : S500000x128.Idx) (q : dot_S500000x128_S128x128_S500000x128_1_0_0_1_n_n.contr.Idx) : (dot_S500000x128_S128x128_S500000x128_1_0_0_1_n_n.rhsIdx i q 1).val = (i 1).val := by
  unfold DotDims.rhsIdx
  rw [dif_neg (show ¬(1 : Fin S128x128.rank) ∈ dot_S500000x128_S128x128_S500000x128_1_0_0_1_n_n.rhsBatch by decide),
    dif_pos (show (1 : Fin S128x128.rank) ∈ dot_S500000x128_S128x128_S500000x128_1_0_0_1_n_n.rhsNonContracting by decide)]
  rfl

/-! ## The non-pointwise operations, each read at row `e`, column `j` -/

/-- The product at `(e, j)`: the sum over `c` of `a (e, c) * w (c, j)`. -/
theorem dot_apply (a : FVec Ideal S500000x128 .f32) (w : FVec Ideal S128x128 .f32) (e : Fin 500000) (j : Fin 128) :
    Host.dotGeneral (F := Ideal) (φ₁ := .f32) (φ₂ := .f32) dot_S500000x128_S128x128_S500000x128_1_0_0_1_n_n none a w (ix2 e j)
      = ∑ c : Fin 128, a (ix2 e c) * w (ix2 c j) := by
  simp only [Host.dotGeneral]
  rw [Ideal.dotGeneral_apply, ← Equiv.sum_comp (contrEquiv1 dot_S500000x128_S128x128_S500000x128_1_0_0_1_n_n 128 rfl rfl).symm]
  refine Finset.sum_congr rfl fun k _ => ?_
  have hk := contrEquiv1_symm_val dot_S500000x128_S128x128_S500000x128_1_0_0_1_n_n 128 rfl rfl k
  have el : dot_S500000x128_S128x128_S500000x128_1_0_0_1_n_n.lhsIdx (ix2 e j) ((contrEquiv1 dot_S500000x128_S128x128_S500000x128_1_0_0_1_n_n 128 rfl rfl).symm k) = ix2 e k :=
    funext fun ax => Fin.ext (by
      match ax with
      | ⟨0, _⟩ => exact lhs_row _ _
      | ⟨1, _⟩ => exact (lhs_col _ _).trans hk)
  have er : dot_S500000x128_S128x128_S500000x128_1_0_0_1_n_n.rhsIdx (ix2 e j) ((contrEquiv1 dot_S500000x128_S128x128_S500000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

/-- The weights with their leading unit axis dropped, at `(c, j)`: the weights at `(0, c, j)`. -/
theorem weights_apply (w : (⟨S1x128x128, .f32⟩ : BufTy).Contents (Elt Ideal)) (h : S1x128x128.ShapeCasts S128x128)
    (c j : Fin 128) : (shapeCast S128x128 w h : FVec Ideal S128x128 .f32) (ix2 c j) = w (ix3 (0 : Fin 1) c j) :=
  shapeCast_1ab_ab_apply w h c j

/-- The bias laid along every row, at `(e, j)`: the bias at `(0, j)`. -/
theorem bias_apply (b : (⟨S1x128, .f32⟩ : BufTy).Contents (Elt Ideal)) (h1 : S1x128.ShapeCasts S128)
    (h2 : S128.BroadcastsInDim S1x128 (![1] : Fin 1 → Fin S1x128.rank))
    (h3 : S1x128.BroadcastsInDim S500000x128 (![0, 1] : Fin 2 → Fin S500000x128.rank)) (e : Fin 500000) (j : Fin 128) :
    (broadcastInDim S500000x128 ![0, 1] h3 (broadcastInDim S1x128 ![1] h2 (shapeCast S128 b h1))
        : FVec Ideal S500000x128 .f32) (ix2 e j) = b (ix2 (0 : Fin 1) j) := by
  refine (broadcastInDim_apply _ h3 _ (ix2 e j) (ix2 (0 : Fin 1) j) fun a => ?_).trans
    ((broadcastInDim_apply _ h2 _ (ix2 (0 : Fin 1) j) (ix1 j) fun a => ?_).trans (shapeCast_1a_a_apply b h1 j))
  · match a with
    | ⟨0, _⟩ => show 0 = if (1 : Nat) = 1 then 0 else e.val; rw [if_pos rfl]
    | ⟨1, _⟩ => show j.val = if (128 : Nat) = 1 then 0 else j.val; rw [if_neg (by decide)]
  · match a with
    | ⟨0, _⟩ => show j.val = if (128 : Nat) = 1 then 0 else j.val; rw [if_neg (by decide)]

/-- The zero the ramp compares against, at any index. -/
theorem zero_apply (h : S_.BroadcastsInDim S500000x128 (![] : Fin 0 → Fin S500000x128.rank)) (e : Fin 500000) (j : Fin 128) :
    (broadcastInDim S500000x128 ![] h (constant (F := Ideal) S_ .f32 0x00000000#32) : FVec Ideal S500000x128 .f32) (ix2 e j)
      = 0 :=
  (broadcastInDim_apply _ h _ (ix2 e j) (fun a => a.elim0) fun a => a.elim0).trans Ideal.ofBits_zero_f32

/-! ## The branch at an index -/

/-- The reference's value for one branch at row `e` and column `j` is entry `j` of the branch applied to gathered
    row `e`. -/
theorem refBranch_apply (G : (⟨S500000x128, .f32⟩ : BufTy).Contents (Elt Ideal))
    (w1s : (⟨S1x128x128, .f32⟩ : BufTy).Contents (Elt Ideal)) (b1s : (⟨S1x128, .f32⟩ : BufTy).Contents (Elt Ideal))
    (w2s : (⟨S1x128x128, .f32⟩ : BufTy).Contents (Elt Ideal)) (b2s : (⟨S1x128, .f32⟩ : BufTy).Contents (Elt Ideal))
    (e : Fin 500000) (j : Fin 128) :
    refBranch G w1s b1s w2s b2s (ix2 e j)
      = Cert.Branch.mlpRow (fun c h => w1s (ix3 (0 : Fin 1) c h)) (fun h => b1s (ix2 (0 : Fin 1) h))
          (fun h j => w2s (ix3 (0 : Fin 1) h j)) (fun j => b2s (ix2 (0 : Fin 1) j)) (fun c => G (ix2 e c)) j := by
  unfold refBranch Cert.Branch.mlpRow
  rw [addf_apply, dot_apply, bias_apply]
  refine congrArg (· + b2s (ix2 (0 : Fin 1) j)) (Finset.sum_congr rfl fun h _ => ?_)
  rw [weights_apply, maximumf_apply, addf_apply, dot_apply, bias_apply, zero_apply]
  refine congrArg (fun t => max (t + b1s (ix2 (0 : Fin 1) h)) 0 * w2s (ix3 (0 : Fin 1) h j))
    (Finset.sum_congr rfl fun c _ => ?_)
  rw [weights_apply]

end Cert.ReferenceIdeal.BranchValue

end
-- ==== Proof.RefTerm.lean ====
/-
  The reference's result as a function of the six argument arrays.

  The reference's run ends with its result buffer at the composed term of its host operations over the launch
  contents. Here that term is restated over six array variables, once spelt operation by operation as the run has
  it, and once with each branch's two-layer map folded into `refBranch` of the gathered rows and the branch's slices
  of the four tables; the two spellings are one term.
-/
import proofs.«143063_j85744727097473_2_alg».proof.Proof.RefRunP
import proofs.«143063_j85744727097473_2_alg».proof.Proof.RefBranch

set_option maxRecDepth 16384

noncomputable section

namespace Cert.ReferenceIdeal.RefTerm

open Cert.ReferenceIdeal Cert.ReferenceIdeal.Gen Cert.ReferenceIdeal.BranchValue
open Idealize.ShloMosaic Idealize.ShloMosaic.TcCoe Idealize.SL.Sem

section AnyF
variable {F : FTy → Type} [FloatOps F]

set_option maxHeartbeats 4000000 in
/-- The reference's result term over array variables, as the run spells it. -/
def refFn (x : (⟨S100000x128, .f32⟩ : BufTy).Contents (Elt F)) (I : (⟨S500000x6, .i32⟩ : BufTy).Contents (Elt F))
    (W1 : (⟨S6x128x128, .f32⟩ : BufTy).Contents (Elt F)) (b1 : (⟨S6x128, .f32⟩ : BufTy).Contents (Elt F))
    (W2 : (⟨S6x128x128, .f32⟩ : BufTy).Contents (Elt F)) (b2 : (⟨S6x128, .f32⟩ : BufTy).Contents (Elt F)) :
    (⟨S100000x128, .f32⟩ : BufTy).Contents (Elt F) :=
  Host.scatterAdd scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S500000x1 ![0, 0] I slices_S500000x6_S500000x1_0_0) shapeCasts_S500000x1_S500000)) (mulf (mulf (mulf (mulf (mulf (addf (Host.dotGeneral dot_S500000x128_S128x128_S500000x128_1_0_0_1_n_n none (maximumf (addf (Host.dotGeneral dot_S500000x128_S128x128_S500000x128_1_0_0_1_n_n none (Host.gather gather_S100000x128_S500000x1_S500000x128_1_0_n_n_0_1_1128 x (broadcastInDim S500000x1 ![0] bcast_S500000_S500000x1_0 (select (cmpi .slt (shapeCast _ (extractStridedSlice S500000x1 ![0, 0] I slices_S500000x6_S500000x1_0_0) shapeCasts_S500000x1_S500000) (broadcastInDim S500000 ![] bcast_S_S500000 (constantI S_ 32 0#32))) (addi (shapeCast _ (extractStridedSlice S500000x1 ![0, 0] I slices_S500000x6_S500000x1_0_0) shapeCasts_S500000x1_S500000) (broadcastInDim S500000 ![] bcast_S_S500000 (constantI S_ 32 100000#32))) (shapeCast _ (extractStridedSlice S500000x1 ![0, 0] I slices_S500000x6_S500000x1_0_0) shapeCasts_S500000x1_S500000)))) (shapeCast _ (extractStridedSlice S1x128x128 ![0, 0, 0] W1 slices_S6x128x128_S1x128x128_0_0_0) shapeCasts_S1x128x128_S128x128)) (broadcastInDim S500000x128 ![0, 1] bcast_S1x128_S500000x128_0_1 (broadcastInDim S1x128 ![1] bcast_S128_S1x128_1 (shapeCast _ (extractStridedSlice S1x128 ![0, 0] b1 slices_S6x128_S1x128_0_0) shapeCasts_S1x128_S128)))) (broadcastInDim S500000x128 ![] bcast_S_S500000x128 (constant S_ .f32 0x00000000#32))) (shapeCast _ (extractStridedSlice S1x128x128 ![0, 0, 0] W2 slices_S6x128x128_S1x128x128_0_0_0) shapeCasts_S1x128x128_S128x128)) (broadcastInDim S500000x128 ![0, 1] bcast_S1x128_S500000x128_0_1 (broadcastInDim S1x128 ![1] bcast_S128_S1x128_1 (shapeCast _ (extractStridedSlice S1x128 ![0, 0] b2 slices_S6x128_S1x128_0_0) shapeCasts_S1x128_S128)))) (addf (Host.dotGeneral dot_S500000x128_S128x128_S500000x128_1_0_0_1_n_n none (maximumf (addf (Host.dotGeneral dot_S500000x128_S128x128_S500000x128_1_0_0_1_n_n none (Host.gather gather_S100000x128_S500000x1_S500000x128_1_0_n_n_0_1_1128 x (broadcastInDim S500000x1 ![0] bcast_S500000_S500000x1_0 (select (cmpi .slt (shapeCast _ (extractStridedSlice S500000x1 ![0, 1] I slices_S500000x6_S500000x1_0_1) shapeCasts_S500000x1_S500000) (broadcastInDim S500000 ![] bcast_S_S500000 (constantI S_ 32 0#32))) (addi (shapeCast _ (extractStridedSlice S500000x1 ![0, 1] I slices_S500000x6_S500000x1_0_1) shapeCasts_S500000x1_S500000) (broadcastInDim S500000 ![] bcast_S_S500000 (constantI S_ 32 100000#32))) (shapeCast _ (extractStridedSlice S500000x1 ![0, 1] I slices_S500000x6_S500000x1_0_1) shapeCasts_S500000x1_S500000)))) (shapeCast _ (extractStridedSlice S1x128x128 ![1, 0, 0] W1 slices_S6x128x128_S1x128x128_1_0_0) shapeCasts_S1x128x128_S128x128)) (broadcastInDim S500000x128 ![0, 1] bcast_S1x128_S500000x128_0_1 (broadcastInDim S1x128 ![1] bcast_S128_S1x128_1 (shapeCast _ (extractStridedSlice S1x128 ![1, 0] b1 slices_S6x128_S1x128_1_0) shapeCasts_S1x128_S128)))) (broadcastInDim S500000x128 ![] bcast_S_S500000x128 (constant S_ .f32 0x00000000#32))) (shapeCast _ (extractStridedSlice S1x128x128 ![1, 0, 0] W2 slices_S6x128x128_S1x128x128_1_0_0) shapeCasts_S1x128x128_S128x128)) (broadcastInDim S500000x128 ![0, 1] bcast_S1x128_S500000x128_0_1 (broadcastInDim S1x128 ![1] bcast_S128_S1x128_1 (shapeCast _ (extractStridedSlice S1x128 ![1, 0] b2 slices_S6x128_S1x128_1_0) shapeCasts_S1x128_S128))))) (addf (Host.dotGeneral dot_S500000x128_S128x128_S500000x128_1_0_0_1_n_n none (maximumf (addf (Host.dotGeneral dot_S500000x128_S128x128_S500000x128_1_0_0_1_n_n none (Host.gather gather_S100000x128_S500000x1_S500000x128_1_0_n_n_0_1_1128 x (broadcastInDim S500000x1 ![0] bcast_S500000_S500000x1_0 (select (cmpi .slt (shapeCast _ (extractStridedSlice S500000x1 ![0, 2] I slices_S500000x6_S500000x1_0_2) shapeCasts_S500000x1_S500000) (broadcastInDim S500000 ![] bcast_S_S500000 (constantI S_ 32 0#32))) (addi (shapeCast _ (extractStridedSlice S500000x1 ![0, 2] I slices_S500000x6_S500000x1_0_2) shapeCasts_S500000x1_S500000) (broadcastInDim S500000 ![] bcast_S_S500000 (constantI S_ 32 100000#32))) (shapeCast _ (extractStridedSlice S500000x1 ![0, 2] I slices_S500000x6_S500000x1_0_2) shapeCasts_S500000x1_S500000)))) (shapeCast _ (extractStridedSlice S1x128x128 ![2, 0, 0] W1 slices_S6x128x128_S1x128x128_2_0_0) shapeCasts_S1x128x128_S128x128)) (broadcastInDim S500000x128 ![0, 1] bcast_S1x128_S500000x128_0_1 (broadcastInDim S1x128 ![1] bcast_S128_S1x128_1 (shapeCast _ (extractStridedSlice S1x128 ![2, 0] b1 slices_S6x128_S1x128_2_0) shapeCasts_S1x128_S128)))) (broadcastInDim S500000x128 ![] bcast_S_S500000x128 (constant S_ .f32 0x00000000#32))) (shapeCast _ (extractStridedSlice S1x128x128 ![2, 0, 0] W2 slices_S6x128x128_S1x128x128_2_0_0) shapeCasts_S1x128x128_S128x128)) (broadcastInDim S500000x128 ![0, 1] bcast_S1x128_S500000x128_0_1 (broadcastInDim S1x128 ![1] bcast_S128_S1x128_1 (shapeCast _ (extractStridedSlice S1x128 ![2, 0] b2 slices_S6x128_S1x128_2_0) shapeCasts_S1x128_S128))))) (addf (Host.dotGeneral dot_S500000x128_S128x128_S500000x128_1_0_0_1_n_n none (maximumf (addf (Host.dotGeneral dot_S500000x128_S128x128_S500000x128_1_0_0_1_n_n none (Host.gather gather_S100000x128_S500000x1_S500000x128_1_0_n_n_0_1_1128 x (broadcastInDim S500000x1 ![0] bcast_S500000_S500000x1_0 (select (cmpi .slt (shapeCast _ (extractStridedSlice S500000x1 ![0, 3] I slices_S500000x6_S500000x1_0_3) shapeCasts_S500000x1_S500000) (broadcastInDim S500000 ![] bcast_S_S500000 (constantI S_ 32 0#32))) (addi (shapeCast _ (extractStridedSlice S500000x1 ![0, 3] I slices_S500000x6_S500000x1_0_3) shapeCasts_S500000x1_S500000) (broadcastInDim S500000 ![] bcast_S_S500000 (constantI S_ 32 100000#32))) (shapeCast _ (extractStridedSlice S500000x1 ![0, 3] I slices_S500000x6_S500000x1_0_3) shapeCasts_S500000x1_S500000)))) (shapeCast _ (extractStridedSlice S1x128x128 ![3, 0, 0] W1 slices_S6x128x128_S1x128x128_3_0_0) shapeCasts_S1x128x128_S128x128)) (broadcastInDim S500000x128 ![0, 1] bcast_S1x128_S500000x128_0_1 (broadcastInDim S1x128 ![1] bcast_S128_S1x128_1 (shapeCast _ (extractStridedSlice S1x128 ![3, 0] b1 slices_S6x128_S1x128_3_0) shapeCasts_S1x128_S128)))) (broadcastInDim S500000x128 ![] bcast_S_S500000x128 (constant S_ .f32 0x00000000#32))) (shapeCast _ (extractStridedSlice S1x128x128 ![3, 0, 0] W2 slices_S6x128x128_S1x128x128_3_0_0) shapeCasts_S1x128x128_S128x128)) (broadcastInDim S500000x128 ![0, 1] bcast_S1x128_S500000x128_0_1 (broadcastInDim S1x128 ![1] bcast_S128_S1x128_1 (shapeCast _ (extractStridedSlice S1x128 ![3, 0] b2 slices_S6x128_S1x128_3_0) shapeCasts_S1x128_S128))))) (addf (Host.dotGeneral dot_S500000x128_S128x128_S500000x128_1_0_0_1_n_n none (maximumf (addf (Host.dotGeneral dot_S500000x128_S128x128_S500000x128_1_0_0_1_n_n none (Host.gather gather_S100000x128_S500000x1_S500000x128_1_0_n_n_0_1_1128 x (broadcastInDim S500000x1 ![0] bcast_S500000_S500000x1_0 (select (cmpi .slt (shapeCast _ (extractStridedSlice S500000x1 ![0, 4] I slices_S500000x6_S500000x1_0_4) shapeCasts_S500000x1_S500000) (broadcastInDim S500000 ![] bcast_S_S500000 (constantI S_ 32 0#32))) (addi (shapeCast _ (extractStridedSlice S500000x1 ![0, 4] I slices_S500000x6_S500000x1_0_4) shapeCasts_S500000x1_S500000) (broadcastInDim S500000 ![] bcast_S_S500000 (constantI S_ 32 100000#32))) (shapeCast _ (extractStridedSlice S500000x1 ![0, 4] I slices_S500000x6_S500000x1_0_4) shapeCasts_S500000x1_S500000)))) (shapeCast _ (extractStridedSlice S1x128x128 ![4, 0, 0] W1 slices_S6x128x128_S1x128x128_4_0_0) shapeCasts_S1x128x128_S128x128)) (broadcastInDim S500000x128 ![0, 1] bcast_S1x128_S500000x128_0_1 (broadcastInDim S1x128 ![1] bcast_S128_S1x128_1 (shapeCast _ (extractStridedSlice S1x128 ![4, 0] b1 slices_S6x128_S1x128_4_0) shapeCasts_S1x128_S128)))) (broadcastInDim S500000x128 ![] bcast_S_S500000x128 (constant S_ .f32 0x00000000#32))) (shapeCast _ (extractStridedSlice S1x128x128 ![4, 0, 0] W2 slices_S6x128x128_S1x128x128_4_0_0) shapeCasts_S1x128x128_S128x128)) (broadcastInDim S500000x128 ![0, 1] bcast_S1x128_S500000x128_0_1 (broadcastInDim S1x128 ![1] bcast_S128_S1x128_1 (shapeCast _ (extractStridedSlice S1x128 ![4, 0] b2 slices_S6x128_S1x128_4_0) shapeCasts_S1x128_S128))))) (addf (Host.dotGeneral dot_S500000x128_S128x128_S500000x128_1_0_0_1_n_n none (maximumf (addf (Host.dotGeneral dot_S500000x128_S128x128_S500000x128_1_0_0_1_n_n none (Host.gather gather_S100000x128_S500000x1_S500000x128_1_0_n_n_0_1_1128 x (broadcastInDim S500000x1 ![0] bcast_S500000_S500000x1_0 (select (cmpi .slt (shapeCast _ (extractStridedSlice S500000x1 ![0, 5] I slices_S500000x6_S500000x1_0_5) shapeCasts_S500000x1_S500000) (broadcastInDim S500000 ![] bcast_S_S500000 (constantI S_ 32 0#32))) (addi (shapeCast _ (extractStridedSlice S500000x1 ![0, 5] I slices_S500000x6_S500000x1_0_5) shapeCasts_S500000x1_S500000) (broadcastInDim S500000 ![] bcast_S_S500000 (constantI S_ 32 100000#32))) (shapeCast _ (extractStridedSlice S500000x1 ![0, 5] I slices_S500000x6_S500000x1_0_5) shapeCasts_S500000x1_S500000)))) (shapeCast _ (extractStridedSlice S1x128x128 ![5, 0, 0] W1 slices_S6x128x128_S1x128x128_5_0_0) shapeCasts_S1x128x128_S128x128)) (broadcastInDim S500000x128 ![0, 1] bcast_S1x128_S500000x128_0_1 (broadcastInDim S1x128 ![1] bcast_S128_S1x128_1 (shapeCast _ (extractStridedSlice S1x128 ![5, 0] b1 slices_S6x128_S1x128_5_0) shapeCasts_S1x128_S128)))) (broadcastInDim S500000x128 ![] bcast_S_S500000x128 (constant S_ .f32 0x00000000#32))) (shapeCast _ (extractStridedSlice S1x128x128 ![5, 0, 0] W2 slices_S6x128x128_S1x128x128_5_0_0) shapeCasts_S1x128x128_S128x128)) (broadcastInDim S500000x128 ![0, 1] bcast_S1x128_S500000x128_0_1 (broadcastInDim S1x128 ![1] bcast_S128_S1x128_1 (shapeCast _ (extractStridedSlice S1x128 ![5, 0] b2 slices_S6x128_S1x128_5_0) shapeCasts_S1x128_S128)))))

set_option maxHeartbeats 4000000 in
/-- The run's result term is `refFn` of the launch contents of the six arguments. -/
theorem res_eq (m : (ℓ : Loc nD τ sig) → Buf (Elt F) ℓ) (c : Dev nD) :
    Cert.ReferenceIdeal.ValueP.res_main_v165 m c
      = refFn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v165 refFn
  rfl

end AnyF

set_option maxHeartbeats 4000000 in
/-- The same term at the extended reals with each branch folded: the six gathered row tables, each through its
    branch, multiplied and added into the zero table. -/
def refFolded (x : (⟨S100000x128, .f32⟩ : BufTy).Contents (Elt Ideal)) (I : (⟨S500000x6, .i32⟩ : BufTy).Contents (Elt Ideal))
    (W1 : (⟨S6x128x128, .f32⟩ : BufTy).Contents (Elt Ideal)) (b1 : (⟨S6x128, .f32⟩ : BufTy).Contents (Elt Ideal))
    (W2 : (⟨S6x128x128, .f32⟩ : BufTy).Contents (Elt Ideal)) (b2 : (⟨S6x128, .f32⟩ : BufTy).Contents (Elt Ideal)) :
    (⟨S100000x128, .f32⟩ : BufTy).Contents (Elt Ideal) :=
  Host.scatterAdd (F := Ideal) (φ := .f32) scatter_S100000x128_S500000x1_S500000x128_1_0_0_1 (broadcastInDim S100000x128 ![] bcast_S_S100000x128 (constant S_ .f32 0x00000000#32)) (broadcastInDim S500000x1 ![0] bcast_S500000_S500000x1_0 (shapeCast _ (extractStridedSlice S500000x1 ![0, 0] I slices_S500000x6_S500000x1_0_0) shapeCasts_S500000x1_S500000)) (mulf (F := Ideal) (φ := .f32) (mulf (F := Ideal) (φ := .f32) (mulf (F := Ideal) (φ := .f32) (mulf (F := Ideal) (φ := .f32) (mulf (F := Ideal) (φ := .f32) (refBranch (Host.gather gather_S100000x128_S500000x1_S500000x128_1_0_n_n_0_1_1128 x (broadcastInDim S500000x1 ![0] bcast_S500000_S500000x1_0 (select (cmpi .slt (shapeCast _ (extractStridedSlice S500000x1 ![0, 0] I slices_S500000x6_S500000x1_0_0) shapeCasts_S500000x1_S500000) (broadcastInDim S500000 ![] bcast_S_S500000 (constantI S_ 32 0#32))) (addi (shapeCast _ (extractStridedSlice S500000x1 ![0, 0] I slices_S500000x6_S500000x1_0_0) shapeCasts_S500000x1_S500000) (broadcastInDim S500000 ![] bcast_S_S500000 (constantI S_ 32 100000#32))) (shapeCast _ (extractStridedSlice S500000x1 ![0, 0] I slices_S500000x6_S500000x1_0_0) shapeCasts_S500000x1_S500000)))) (extractStridedSlice S1x128x128 ![0, 0, 0] W1 slices_S6x128x128_S1x128x128_0_0_0) (extractStridedSlice S1x128 ![0, 0] b1 slices_S6x128_S1x128_0_0) (extractStridedSlice S1x128x128 ![0, 0, 0] W2 slices_S6x128x128_S1x128x128_0_0_0) (extractStridedSlice S1x128 ![0, 0] b2 slices_S6x128_S1x128_0_0)) (refBranch (Host.gather gather_S100000x128_S500000x1_S500000x128_1_0_n_n_0_1_1128 x (broadcastInDim S500000x1 ![0] bcast_S500000_S500000x1_0 (select (cmpi .slt (shapeCast _ (extractStridedSlice S500000x1 ![0, 1] I slices_S500000x6_S500000x1_0_1) shapeCasts_S500000x1_S500000) (broadcastInDim S500000 ![] bcast_S_S500000 (constantI S_ 32 0#32))) (addi (shapeCast _ (extractStridedSlice S500000x1 ![0, 1] I slices_S500000x6_S500000x1_0_1) shapeCasts_S500000x1_S500000) (broadcastInDim S500000 ![] bcast_S_S500000 (constantI S_ 32 100000#32))) (shapeCast _ (extractStridedSlice S500000x1 ![0, 1] I slices_S500000x6_S500000x1_0_1) shapeCasts_S500000x1_S500000)))) (extractStridedSlice S1x128x128 ![1, 0, 0] W1 slices_S6x128x128_S1x128x128_1_0_0) (extractStridedSlice S1x128 ![1, 0] b1 slices_S6x128_S1x128_1_0) (extractStridedSlice S1x128x128 ![1, 0, 0] W2 slices_S6x128x128_S1x128x128_1_0_0) (extractStridedSlice S1x128 ![1, 0] b2 slices_S6x128_S1x128_1_0))) (refBranch (Host.gather gather_S100000x128_S500000x1_S500000x128_1_0_n_n_0_1_1128 x (broadcastInDim S500000x1 ![0] bcast_S500000_S500000x1_0 (select (cmpi .slt (shapeCast _ (extractStridedSlice S500000x1 ![0, 2] I slices_S500000x6_S500000x1_0_2) shapeCasts_S500000x1_S500000) (broadcastInDim S500000 ![] bcast_S_S500000 (constantI S_ 32 0#32))) (addi (shapeCast _ (extractStridedSlice S500000x1 ![0, 2] I slices_S500000x6_S500000x1_0_2) shapeCasts_S500000x1_S500000) (broadcastInDim S500000 ![] bcast_S_S500000 (constantI S_ 32 100000#32))) (shapeCast _ (extractStridedSlice S500000x1 ![0, 2] I slices_S500000x6_S500000x1_0_2) shapeCasts_S500000x1_S500000)))) (extractStridedSlice S1x128x128 ![2, 0, 0] W1 slices_S6x128x128_S1x128x128_2_0_0) (extractStridedSlice S1x128 ![2, 0] b1 slices_S6x128_S1x128_2_0) (extractStridedSlice S1x128x128 ![2, 0, 0] W2 slices_S6x128x128_S1x128x128_2_0_0) (extractStridedSlice S1x128 ![2, 0] b2 slices_S6x128_S1x128_2_0))) (refBranch (Host.gather gather_S100000x128_S500000x1_S500000x128_1_0_n_n_0_1_1128 x (broadcastInDim S500000x1 ![0] bcast_S500000_S500000x1_0 (select (cmpi .slt (shapeCast _ (extractStridedSlice S500000x1 ![0, 3] I slices_S500000x6_S500000x1_0_3) shapeCasts_S500000x1_S500000) (broadcastInDim S500000 ![] bcast_S_S500000 (constantI S_ 32 0#32))) (addi (shapeCast _ (extractStridedSlice S500000x1 ![0, 3] I slices_S500000x6_S500000x1_0_3) shapeCasts_S500000x1_S500000) (broadcastInDim S500000 ![] bcast_S_S500000 (constantI S_ 32 100000#32))) (shapeCast _ (extractStridedSlice S500000x1 ![0, 3] I slices_S500000x6_S500000x1_0_3) shapeCasts_S500000x1_S500000)))) (extractStridedSlice S1x128x128 ![3, 0, 0] W1 slices_S6x128x128_S1x128x128_3_0_0) (extractStridedSlice S1x128 ![3, 0] b1 slices_S6x128_S1x128_3_0) (extractStridedSlice S1x128x128 ![3, 0, 0] W2 slices_S6x128x128_S1x128x128_3_0_0) (extractStridedSlice S1x128 ![3, 0] b2 slices_S6x128_S1x128_3_0))) (refBranch (Host.gather gather_S100000x128_S500000x1_S500000x128_1_0_n_n_0_1_1128 x (broadcastInDim S500000x1 ![0] bcast_S500000_S500000x1_0 (select (cmpi .slt (shapeCast _ (extractStridedSlice S500000x1 ![0, 4] I slices_S500000x6_S500000x1_0_4) shapeCasts_S500000x1_S500000) (broadcastInDim S500000 ![] bcast_S_S500000 (constantI S_ 32 0#32))) (addi (shapeCast _ (extractStridedSlice S500000x1 ![0, 4] I slices_S500000x6_S500000x1_0_4) shapeCasts_S500000x1_S500000) (broadcastInDim S500000 ![] bcast_S_S500000 (constantI S_ 32 100000#32))) (shapeCast _ (extractStridedSlice S500000x1 ![0, 4] I slices_S500000x6_S500000x1_0_4) shapeCasts_S500000x1_S500000)))) (extractStridedSlice S1x128x128 ![4, 0, 0] W1 slices_S6x128x128_S1x128x128_4_0_0) (extractStridedSlice S1x128 ![4, 0] b1 slices_S6x128_S1x128_4_0) (extractStridedSlice S1x128x128 ![4, 0, 0] W2 slices_S6x128x128_S1x128x128_4_0_0) (extractStridedSlice S1x128 ![4, 0] b2 slices_S6x128_S1x128_4_0))) (refBranch (Host.gather gather_S100000x128_S500000x1_S500000x128_1_0_n_n_0_1_1128 x (broadcastInDim S500000x1 ![0] bcast_S500000_S500000x1_0 (select (cmpi .slt (shapeCast _ (extractStridedSlice S500000x1 ![0, 5] I slices_S500000x6_S500000x1_0_5) shapeCasts_S500000x1_S500000) (broadcastInDim S500000 ![] bcast_S_S500000 (constantI S_ 32 0#32))) (addi (shapeCast _ (extractStridedSlice S500000x1 ![0, 5] I slices_S500000x6_S500000x1_0_5) shapeCasts_S500000x1_S500000) (broadcastInDim S500000 ![] bcast_S_S500000 (constantI S_ 32 100000#32))) (shapeCast _ (extractStridedSlice S500000x1 ![0, 5] I slices_S500000x6_S500000x1_0_5) shapeCasts_S500000x1_S500000)))) (extractStridedSlice S1x128x128 ![5, 0, 0] W1 slices_S6x128x128_S1x128x128_5_0_0) (extractStridedSlice S1x128 ![5, 0] b1 slices_S6x128_S1x128_5_0) (extractStridedSlice S1x128x128 ![5, 0, 0] W2 slices_S6x128x128_S1x128x128_5_0_0) (extractStridedSlice S1x128 ![5, 0] b2 slices_S6x128_S1x128_5_0)))

set_option maxHeartbeats 4000000 in
theorem refFn_eq_folded (x : (⟨S100000x128, .f32⟩ : BufTy).Contents (Elt Ideal)) (I : (⟨S500000x6, .i32⟩ : BufTy).Contents (Elt Ideal))
    (W1 : (⟨S6x128x128, .f32⟩ : BufTy).Contents (Elt Ideal)) (b1 : (⟨S6x128, .f32⟩ : BufTy).Contents (Elt Ideal))
    (W2 : (⟨S6x128x128, .f32⟩ : BufTy).Contents (Elt Ideal)) (b2 : (⟨S6x128, .f32⟩ : BufTy).Contents (Elt Ideal)) :
    refFn (F := Ideal) x I W1 b1 W2 b2 = refFolded x I W1 b1 W2 b2 := by
  unfold refFn refFolded refBranch
  rfl

end Cert.ReferenceIdeal.RefTerm

end
-- ==== Proof.RowGather.lean ====
/-
  A gather of whole rows.

  Both programs gather rows of a table of 100000 rows and 128 columns at 500000 start indices, one per result
  row: result row `e` is the table's row whose number is start index `e`, read as a signed integer and clamped
  into `[0, 99999]`. Which row is read depends on the start indices alone, never on the table: two tables gathered
  at the same start indices are read at the same rows.
-/
import proofs.«143063_j85744727097473_2_alg».proof.KernelIdeal
import proofs.«143063_j85744727097473_2_alg».proof.ReferenceIdeal
import Idealize.ShloMosaic.Lib.ValueIdx

noncomputable section

namespace Cert.RowGather

open Idealize.ShloMosaic Idealize.ShloMosaic.ValueIdx

/-- The dimension numbers of a gather of whole rows: the one start-index component names axis 0, that axis is
    collapsed, and the slice is one row of 128 columns laid along result axis 1. -/
abbrev rowDims
    (wf : GatherDims.WF ⟨2, ![100000, 128]⟩ ⟨2, ![500000, 1]⟩ ⟨2, ![500000, 128]⟩ [1] [0] [] [0] [] 1 ![1, 128]) :
    GatherDims ⟨2, ![100000, 128]⟩ ⟨2, ![500000, 1]⟩ ⟨2, ![500000, 128]⟩ where
  offsetDims := [1]
  collapsedSliceDims := [0]
  operandBatchingDims := []
  startIndicesBatchingDims := []
  startIndexMap := [0]
  indexVectorDim := 1
  sliceSizes := ![1, 128]
  wf := wf

/-- The table row that result row `e` reads: start index `e` read signed and clamped into `[0, 99999]`. -/
def rowOf (I : IVec ⟨2, ![500000, 1]⟩ 32) (e : Fin 500000) : Fin 100000 :=
  ⟨min (I (ix2 e (0 : Fin 1))).toInt.toNat (100000 - 1), by omega⟩

/-- The gather read at row `e`, column `j`: the table at row `rowOf I e`, column `j`. -/
theorem gather_rows_apply {α : Type}
    (wf : GatherDims.WF ⟨2, ![100000, 128]⟩ ⟨2, ![500000, 1]⟩ ⟨2, ![500000, 128]⟩ [1] [0] [] [0] [] 1 ![1, 128])
    (T : (⟨2, ![100000, 128]⟩ : Shape).Idx → α) (I : IVec ⟨2, ![500000, 1]⟩ 32) (e : Fin 500000) (j : Fin 128) :
    Host.gather (rowDims wf) T I (ix2 e j) = T (ix2 (rowOf I e) j) := by
  unfold Host.gather
  -- the row: the clamped start index, no offset on the collapsed axis
  have h0 : ((rowDims wf).operandIdx (ix2 e j) I (0 : Fin 2)).val = (rowOf I e).val := by
    show (rowDims wf).start (ix2 e j) I 0 + (rowDims wf).batchCoord (ix2 e j) 0 + (rowDims wf).offCoord (ix2 e j) 0 = _
    rw [GatherDims.batchCoord_eq_zero _ _ _ List.not_mem_nil,
      GatherDims.offCoord_eq_zero _ _ _
        (fun h => ((GatherDims.mem_sKept _ _).mp h).1 (List.mem_singleton.mpr rfl)), Nat.add_zero]
    unfold GatherDims.start
    rw [dif_pos (show (0 : Fin 2) ∈ (rowDims wf).startIndexMap from List.mem_singleton.mpr rfl)]
    have hsi : (rowDims wf).siIdx (ix2 e j) ⟨List.idxOf (0 : Fin 2) (rowDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column: no start on an axis the start index does not name, the result's column as the offset
  have h1 : ((rowDims wf).operandIdx (ix2 e j) I (1 : Fin 2)).val = j.val := by
    show (rowDims wf).start (ix2 e j) I 1 + (rowDims wf).batchCoord (ix2 e j) 1 + (rowDims wf).offCoord (ix2 e j) 1 = _
    rw [GatherDims.batchCoord_eq_zero _ _ _ List.not_mem_nil, Nat.add_zero]
    unfold GatherDims.start
    rw [dif_neg (fun h : (1 : Fin 2) ∈ (rowDims wf).startIndexMap => absurd (List.mem_singleton.mp h) (by decide)),
      Nat.zero_add]
    unfold GatherDims.offCoord
    rw [dif_pos ((GatherDims.mem_sKept (rowDims wf) (1 : Fin 2)).mpr
      ⟨fun h => absurd (List.mem_singleton.mp h) (by decide), List.not_mem_nil⟩)]
    rfl
  refine congrArg T (funext fun a => Fin.ext ?_)
  match a with
  | ⟨0, _⟩ => exact h0
  | ⟨1, _⟩ => exact h1

/-- The kernel program's gather, at any float instance: the row read does not depend on the table. -/
theorem kernel_gather_apply {F : FTy → Type} [FloatOps F] [Cert.KernelIdeal.Facts₀]
    (T : (⟨Cert.KernelIdeal.S100000x128, .f32⟩ : BufTy).Contents (Elt F))
    (I : (⟨Cert.KernelIdeal.S500000x1, .i32⟩ : BufTy).Contents (Elt F)) (e : Fin 500000) (j : Fin 128) :
    Host.gather Cert.KernelIdeal.gather_S100000x128_S500000x1_S500000x128_1_0_n_n_0_1_1128 T I (ix2 e j)
      = T (ix2 (rowOf I e) j) :=
  gather_rows_apply Cert.KernelIdeal.Facts₀.gather_S100000x128_S500000x1_S500000x128_1_0_n_n_0_1_1128_wf T I e j

/-- The reference program's gather, at any float instance: the same rows. -/
theorem reference_gather_apply {F : FTy → Type} [FloatOps F] [Cert.ReferenceIdeal.Facts₀]
    (T : (⟨Cert.ReferenceIdeal.S100000x128, .f32⟩ : BufTy).Contents (Elt F))
    (I : (⟨Cert.ReferenceIdeal.S500000x1, .i32⟩ : BufTy).Contents (Elt F)) (e : Fin 500000) (j : Fin 128) :
    Host.gather Cert.ReferenceIdeal.gather_S100000x128_S500000x1_S500000x128_1_0_n_n_0_1_1128 T I (ix2 e j)
      = T (ix2 (rowOf I e) j) :=
  gather_rows_apply Cert.ReferenceIdeal.Facts₀.gather_S100000x128_S500000x1_S500000x128_1_0_n_n_0_1_1128_wf T I e j

end Cert.RowGather

end
-- ==== Proof.SliceReads.lean ====
/-
  Slices read at an index.

  The kernel's result holds the six branches side by side, branch `k` in columns `128 k` to `128 k + 127`; the slab
  cut out for branch `k` reads, at row `n` and column `j`, the result at row `n` and column `128 k + j`. The reference
  cuts branch `k`'s weights and bias out of stacks of six; the cut reads, at leading coordinate `0`, the stack at
  leading coordinate `k`. Each statement is over any proof of its slicing fact.
-/
import Idealize.ShloMosaic.Lib.ValueIdx
import Idealize.ShloMosaic.Lib.Pipeline.Value
import Idealize.ShloMosaic.Lib.ValueLayout

noncomputable section

namespace Cert.SliceReads

open Idealize.ShloMosaic Idealize.ShloMosaic.ValueIdx

variable {α : Type}

/-! ## A slab of 128 columns of the kernel's result -/

/-- The slab starting at column `o`, at `(n, j)`: the result at `(n, q)` for the column `q = o + j`. -/
theorem slab_apply (o : Nat) (Y : (⟨2, ![100000, 768]⟩ : Shape).Idx → α)
    (h : (⟨2, ![100000, 768]⟩ : Shape).Slices ![0, o] ⟨2, ![100000, 128]⟩) (n : Fin 100000) (j : Fin 128)
    (q : Fin 768) (hq : q.val = o + j.val) :
    extractStridedSlice ⟨2, ![100000, 128]⟩ ![0, o] Y h (ix2 n j) = Y (ix2 n q) :=
  slice2_axis1_apply o Y h n j q hq

/-- Branch 0's slab, at `(n, j)`: the result at row `n`, column `j`. -/
theorem slab0_apply (Y : (⟨2, ![100000, 768]⟩ : Shape).Idx → α)
    (h : (⟨2, ![100000, 768]⟩ : Shape).Slices ![0, 0] ⟨2, ![100000, 128]⟩) (n : Fin 100000) (j : Fin 128) :
    extractStridedSlice ⟨2, ![100000, 128]⟩ ![0, 0] Y h (ix2 n j)
      = Y (ix2 n (⟨j.val, by have := j.isLt; omega⟩ : Fin 768)) :=
  slab_apply 0 Y h n j _ (Nat.zero_add _).symm

/-- Branch 1's slab, at `(n, j)`: the result at row `n`, column `128 + j`. -/
theorem slab1_apply (Y : (⟨2, ![100000, 768]⟩ : Shape).Idx → α)
    (h : (⟨2, ![100000, 768]⟩ : Shape).Slices ![0, 128] ⟨2, ![100000, 128]⟩) (n : Fin 100000) (j : Fin 128) :
    extractStridedSlice ⟨2, ![100000, 128]⟩ ![0, 128] Y h (ix2 n j)
      = Y (ix2 n (⟨128 + j.val, by have := j.isLt; omega⟩ : Fin 768)) :=
  slab_apply 128 Y h n j _ rfl

/-- Branch 2's slab, at `(n, j)`: the result at row `n`, column `256 + j`. -/
theorem slab2_apply (Y : (⟨2, ![100000, 768]⟩ : Shape).Idx → α)
    (h : (⟨2, ![100000, 768]⟩ : Shape).Slices ![0, 256] ⟨2, ![100000, 128]⟩) (n : Fin 100000) (j : Fin 128) :
    extractStridedSlice ⟨2, ![100000, 128]⟩ ![0, 256] Y h (ix2 n j)
      = Y (ix2 n (⟨256 + j.val, by have := j.isLt; omega⟩ : Fin 768)) :=
  slab_apply 256 Y h n j _ rfl

/-- Branch 3's slab, at `(n, j)`: the result at row `n`, column `384 + j`. -/
theorem slab3_apply (Y : (⟨2, ![100000, 768]⟩ : Shape).Idx → α)
    (h : (⟨2, ![100000, 768]⟩ : Shape).Slices ![0, 384] ⟨2, ![100000, 128]⟩) (n : Fin 100000) (j : Fin 128) :
    extractStridedSlice ⟨2, ![100000, 128]⟩ ![0, 384] Y h (ix2 n j)
      = Y (ix2 n (⟨384 + j.val, by have := j.isLt; omega⟩ : Fin 768)) :=
  slab_apply 384 Y h n j _ rfl

/-- Branch 4's slab, at `(n, j)`: the result at row `n`, column `512 + j`. -/
theorem slab4_apply (Y : (⟨2, ![100000, 768]⟩ : Shape).Idx → α)
    (h : (⟨2, ![100000, 768]⟩ : Shape).Slices ![0, 512] ⟨2, ![100000, 128]⟩) (n : Fin 100000) (j : Fin 128) :
    extractStridedSlice ⟨2, ![100000, 128]⟩ ![0, 512] Y h (ix2 n j)
      = Y (ix2 n (⟨512 + j.val, by have := j.isLt; omega⟩ : Fin 768)) :=
  slab_apply 512 Y h n j _ rfl

/-- Branch 5's slab, at `(n, j)`: the result at row `n`, column `640 + j`. -/
theorem slab5_apply (Y : (⟨2, ![100000, 768]⟩ : Shape).Idx → α)
    (h : (⟨2, ![100000, 768]⟩ : Shape).Slices ![0, 640] ⟨2, ![100000, 128]⟩) (n : Fin 100000) (j : Fin 128) :
    extractStridedSlice ⟨2, ![100000, 128]⟩ ![0, 640] Y h (ix2 n j)
      = Y (ix2 n (⟨640 + j.val, by have := j.isLt; omega⟩ : Fin 768)) :=
  slab_apply 640 Y h n j _ rfl

/-! ## One of six weight matrices -/

/-- The matrix cut out at leading coordinate `o`, at `(u, c, d)`: the stack at `(k, c, d)` for `k = o`. -/
theorem weights_apply (o : Nat) (W : (⟨3, ![6, 128, 128]⟩ : Shape).Idx → α)
    (h : (⟨3, ![6, 128, 128]⟩ : Shape).Slices ![o, 0, 0] ⟨3, ![1, 128, 128]⟩) (u : Fin 1) (c d : Fin 128)
    (k : Fin 6) (hk : k.val = o) :
    extractStridedSlice ⟨3, ![1, 128, 128]⟩ ![o, 0, 0] W h (ix3 u c d) = W (ix3 k c d) :=
  extractStridedSlice_apply _ _ _ _ _ (fun ax => by
    match ax with
    | ⟨0, _⟩ => show k.val = o + u.val; have := u.isLt; omega
    | ⟨1, _⟩ => exact (Nat.zero_add _).symm
    | ⟨2, _⟩ => exact (Nat.zero_add _).symm)

/-- Branch 0's weights, at `(0, c, d)`: the stack at `(0, c, d)`. -/
theorem weights0_apply (W : (⟨3, ![6, 128, 128]⟩ : Shape).Idx → α)
    (h : (⟨3, ![6, 128, 128]⟩ : Shape).Slices ![0, 0, 0] ⟨3, ![1, 128, 128]⟩) (c d : Fin 128) :
    extractStridedSlice ⟨3, ![1, 128, 128]⟩ ![0, 0, 0] W h (ix3 (0 : Fin 1) c d) = W (ix3 (0 : Fin 6) c d) :=
  weights_apply 0 W h 0 c d 0 rfl

/-- Branch 1's weights, at `(0, c, d)`: the stack at `(1, c, d)`. -/
theorem weights1_apply (W : (⟨3, ![6, 128, 128]⟩ : Shape).Idx → α)
    (h : (⟨3, ![6, 128, 128]⟩ : Shape).Slices ![1, 0, 0] ⟨3, ![1, 128, 128]⟩) (c d : Fin 128) :
    extractStridedSlice ⟨3, ![1, 128, 128]⟩ ![1, 0, 0] W h (ix3 (0 : Fin 1) c d) = W (ix3 (1 : Fin 6) c d) :=
  weights_apply 1 W h 0 c d 1 rfl

/-- Branch 2's weights, at `(0, c, d)`: the stack at `(2, c, d)`. -/
theorem weights2_apply (W : (⟨3, ![6, 128, 128]⟩ : Shape).Idx → α)
    (h : (⟨3, ![6, 128, 128]⟩ : Shape).Slices ![2, 0, 0] ⟨3, ![1, 128, 128]⟩) (c d : Fin 128) :
    extractStridedSlice ⟨3, ![1, 128, 128]⟩ ![2, 0, 0] W h (ix3 (0 : Fin 1) c d) = W (ix3 (2 : Fin 6) c d) :=
  weights_apply 2 W h 0 c d 2 rfl

/-- Branch 3's weights, at `(0, c, d)`: the stack at `(3, c, d)`. -/
theorem weights3_apply (W : (⟨3, ![6, 128, 128]⟩ : Shape).Idx → α)
    (h : (⟨3, ![6, 128, 128]⟩ : Shape).Slices ![3, 0, 0] ⟨3, ![1, 128, 128]⟩) (c d : Fin 128) :
    extractStridedSlice ⟨3, ![1, 128, 128]⟩ ![3, 0, 0] W h (ix3 (0 : Fin 1) c d) = W (ix3 (3 : Fin 6) c d) :=
  weights_apply 3 W h 0 c d 3 rfl

/-- Branch 4's weights, at `(0, c, d)`: the stack at `(4, c, d)`. -/
theorem weights4_apply (W : (⟨3, ![6, 128, 128]⟩ : Shape).Idx → α)
    (h : (⟨3, ![6, 128, 128]⟩ : Shape).Slices ![4, 0, 0] ⟨3, ![1, 128, 128]⟩) (c d : Fin 128) :
    extractStridedSlice ⟨3, ![1, 128, 128]⟩ ![4, 0, 0] W h (ix3 (0 : Fin 1) c d) = W (ix3 (4 : Fin 6) c d) :=
  weights_apply 4 W h 0 c d 4 rfl

/-- Branch 5's weights, at `(0, c, d)`: the stack at `(5, c, d)`. -/
theorem weights5_apply (W : (⟨3, ![6, 128, 128]⟩ : Shape).Idx → α)
    (h : (⟨3, ![6, 128, 128]⟩ : Shape).Slices ![5, 0, 0] ⟨3, ![1, 128, 128]⟩) (c d : Fin 128) :
    extractStridedSlice ⟨3, ![1, 128, 128]⟩ ![5, 0, 0] W h (ix3 (0 : Fin 1) c d) = W (ix3 (5 : Fin 6) c d) :=
  weights_apply 5 W h 0 c d 5 rfl

/-! ## One of six bias rows -/

/-- The row cut out at leading coordinate `o`, at `(u, d)`: the stack at `(k, d)` for `k = o`. -/
theorem bias_apply (o : Nat) (B : (⟨2, ![6, 128]⟩ : Shape).Idx → α)
    (h : (⟨2, ![6, 128]⟩ : Shape).Slices ![o, 0] ⟨2, ![1, 128]⟩) (u : Fin 1) (d : Fin 128)
    (k : Fin 6) (hk : k.val = o) :
    extractStridedSlice ⟨2, ![1, 128]⟩ ![o, 0] B h (ix2 u d) = B (ix2 k d) :=
  slice2_axis0_apply o B h u d k (by have := u.isLt; omega)

/-- Branch 0's bias, at `(0, d)`: the stack at `(0, d)`. -/
theorem bias0_apply (B : (⟨2, ![6, 128]⟩ : Shape).Idx → α)
    (h : (⟨2, ![6, 128]⟩ : Shape).Slices ![0, 0] ⟨2, ![1, 128]⟩) (d : Fin 128) :
    extractStridedSlice ⟨2, ![1, 128]⟩ ![0, 0] B h (ix2 (0 : Fin 1) d) = B (ix2 (0 : Fin 6) d) :=
  bias_apply 0 B h 0 d 0 rfl

/-- Branch 1's bias, at `(0, d)`: the stack at `(1, d)`. -/
theorem bias1_apply (B : (⟨2, ![6, 128]⟩ : Shape).Idx → α)
    (h : (⟨2, ![6, 128]⟩ : Shape).Slices ![1, 0] ⟨2, ![1, 128]⟩) (d : Fin 128) :
    extractStridedSlice ⟨2, ![1, 128]⟩ ![1, 0] B h (ix2 (0 : Fin 1) d) = B (ix2 (1 : Fin 6) d) :=
  bias_apply 1 B h 0 d 1 rfl

/-- Branch 2's bias, at `(0, d)`: the stack at `(2, d)`. -/
theorem bias2_apply (B : (⟨2, ![6, 128]⟩ : Shape).Idx → α)
    (h : (⟨2, ![6, 128]⟩ : Shape).Slices ![2, 0] ⟨2, ![1, 128]⟩) (d : Fin 128) :
    extractStridedSlice ⟨2, ![1, 128]⟩ ![2, 0] B h (ix2 (0 : Fin 1) d) = B (ix2 (2 : Fin 6) d) :=
  bias_apply 2 B h 0 d 2 rfl

/-- Branch 3's bias, at `(0, d)`: the stack at `(3, d)`. -/
theorem bias3_apply (B : (⟨2, ![6, 128]⟩ : Shape).Idx → α)
    (h : (⟨2, ![6, 128]⟩ : Shape).Slices ![3, 0] ⟨2, ![1, 128]⟩) (d : Fin 128) :
    extractStridedSlice ⟨2, ![1, 128]⟩ ![3, 0] B h (ix2 (0 : Fin 1) d) = B (ix2 (3 : Fin 6) d) :=
  bias_apply 3 B h 0 d 3 rfl

/-- Branch 4's bias, at `(0, d)`: the stack at `(4, d)`. -/
theorem bias4_apply (B : (⟨2, ![6, 128]⟩ : Shape).Idx → α)
    (h : (⟨2, ![6, 128]⟩ : Shape).Slices ![4, 0] ⟨2, ![1, 128]⟩) (d : Fin 128) :
    extractStridedSlice ⟨2, ![1, 128]⟩ ![4, 0] B h (ix2 (0 : Fin 1) d) = B (ix2 (4 : Fin 6) d) :=
  bias_apply 4 B h 0 d 4 rfl

/-- Branch 5's bias, at `(0, d)`: the stack at `(5, d)`. -/
theorem bias5_apply (B : (⟨2, ![6, 128]⟩ : Shape).Idx → α)
    (h : (⟨2, ![6, 128]⟩ : Shape).Slices ![5, 0] ⟨2, ![1, 128]⟩) (d : Fin 128) :
    extractStridedSlice ⟨2, ![1, 128]⟩ ![5, 0] B h (ix2 (0 : Fin 1) d) = B (ix2 (5 : Fin 6) d) :=
  bias_apply 5 B h 0 d 5 rfl

end Cert.SliceReads

end
-- ==== Proof.BranchBridge.lean ====
/-
  The kernel's gathered slab is the reference's branch.

  The node table holds every branch applied to every node row, branch `k` in columns `128 k` to `128 k + 127`. Gathering
  rows of branch `k`'s slab at some start indices gives, at row `e` and column `j`, entry `j` of branch `k` applied to the
  node row those indices name for `e`. The reference gathers the node rows at the same start indices first and applies
  branch `k` afterwards, which gives the same entry: the row named for `e` depends on the start indices alone.
-/
import proofs.«143063_j85744727097473_2_alg».proof.KernelIdeal
import proofs.«143063_j85744727097473_2_alg».proof.Proof.Gen.KernelIdeal
import proofs.«143063_j85744727097473_2_alg».proof.Proof.Gen.ReferenceIdeal
import proofs.«143063_j85744727097473_2_alg».proof.Proof.NodeTableSpec
import proofs.«143063_j85744727097473_2_alg».proof.Proof.RowGather
import proofs.«143063_j85744727097473_2_alg».proof.Proof.RefBranch
import proofs.«143063_j85744727097473_2_alg».proof.Proof.SliceReads

noncomputable section

namespace Cert.BranchBridge

open Idealize.ShloMosaic Idealize.ShloMosaic.ValueIdx Idealize.SL.Sem
open Cert.RowGather (rowOf)

/-- Two applications of a branch agree when their weights, biases and rows agree entry by entry. -/
theorem mlpRow_congr {w1 w1' : Fin 128 → Fin 128 → EReal} {b1 b1' : Fin 128 → EReal} {w2 w2' : Fin 128 → Fin 128 → EReal}
    {b2 b2' : Fin 128 → EReal} {r r' : Fin 128 → EReal} (h1 : ∀ c h, w1 c h = w1' c h) (h2 : ∀ h, b1 h = b1' h)
    (h3 : ∀ h j, w2 h j = w2' h j) (h4 : ∀ j, b2 j = b2' j) (h5 : ∀ c, r c = r' c) (j : Fin 128) :
    Cert.Branch.mlpRow w1 b1 w2 b2 r j = Cert.Branch.mlpRow w1' b1' w2' b2' r' j := by
  obtain rfl : w1 = w1' := funext fun c => funext (h1 c)
  obtain rfl : b1 = b1' := funext h2
  obtain rfl : w2 = w2' := funext fun h => funext (h3 h)
  obtain rfl : b2 = b2' := funext h4
  obtain rfl : r = r' := funext h5
  rfl

/-- Branch `k`, its slab starting at column `off = 128 k`: the slab gathered at the start indices `Iarr` is the
    reference's branch on the node rows gathered at the same start indices, with the branch's weights and biases cut
    out of their stacks at leading coordinate `kn = k`. -/
theorem bridge (k : Fin 6) (kn off : Nat) (hk : k.val = kn) (hoff : off = 128 * kn)
    (hs : (⟨2, ![100000, 768]⟩ : Shape).Slices ![0, off] ⟨2, ![100000, 128]⟩)
    (hw : (⟨3, ![6, 128, 128]⟩ : Shape).Slices ![kn, 0, 0] ⟨3, ![1, 128, 128]⟩)
    (hb : (⟨2, ![6, 128]⟩ : Shape).Slices ![kn, 0] ⟨2, ![1, 128]⟩)
    (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, off] (Cert.NodeTable.nodeTable x W1 b1 W2 b2) hs) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![kn, 0, 0] W1 hw)
          (extractStridedSlice Cert.ReferenceIdeal.S1x128 ![kn, 0] b1 hb)
          (extractStridedSlice Cert.ReferenceIdeal.S1x128x128 ![kn, 0, 0] W2 hw)
          (extractStridedSlice Cert.ReferenceIdeal.S1x128 ![kn, 0] b2 hb) := by
  funext i
  obtain ⟨e, j, rfl⟩ : ∃ (e : Fin 500000) (j : Fin 128), i = ix2 e j := ⟨i 0, i 1, eq_ix2 i⟩
  have hkn : kn < 6 := hk ▸ k.isLt
  have hq : off + j.val < 768 := by have := j.isLt; omega
  -- the kernel's side: the row the start indices name, then the slab's column in the table
  refine (Cert.RowGather.kernel_gather_apply (F := Ideal) _ Iarr e j).trans ?_
  refine (Cert.SliceReads.slab_apply off _ hs (rowOf Iarr e) j ⟨off + j.val, hq⟩ rfl).trans ?_
  -- the reference's side: the branch at an index
  refine Eq.trans ?_ (Cert.ReferenceIdeal.BranchValue.refBranch_apply _ _ _ _ _ e j).symm
  -- column `128 k + j` lies in branch `k`'s slab at place `j`
  have hcol : (Cert.NodeTable.kCol (ix2 (rowOf Iarr e) (⟨off + j.val, hq⟩ : Fin 768))).val = kn := by
    show (off + j.val) / 128 = kn
    have := j.isLt; omega
  have hplace : Cert.NodeTable.jCol (ix2 (rowOf Iarr e) (⟨off + j.val, hq⟩ : Fin 768)) = j := Fin.ext (by
    show (off + j.val) % 128 = j.val
    have := j.isLt; omega)
  unfold Cert.NodeTable.nodeTable
  rw [hplace]
  exact mlpRow_congr
    (fun c h => (Cert.SliceReads.weights_apply kn W1 hw 0 c h _ hcol).symm)
    (fun h => (Cert.SliceReads.bias_apply kn b1 hb 0 h _ hcol).symm)
    (fun h j' => (Cert.SliceReads.weights_apply kn W2 hw 0 h j' _ hcol).symm)
    (fun j' => (Cert.SliceReads.bias_apply kn b2 hb 0 j' _ hcol).symm)
    (fun c => (Cert.RowGather.reference_gather_apply (F := Ideal) x Iarr e c).symm) j

/-- Branch 0: columns 0 to 127 of the node table. -/
theorem bridge_0 (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, 0] (Cert.NodeTable.nodeTable x W1 b1 W2 b2)
          Cert.KernelIdeal.Gen.slices_S100000x768_S100000x128_0_0) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![0, 0, 0] W1 Cert.ReferenceIdeal.Gen.slices_S6x128x128_S1x128x128_0_0_0)
          (extractStridedSlice Cert.ReferenceIdeal.S1x128 ![0, 0] b1 Cert.ReferenceIdeal.Gen.slices_S6x128_S1x128_0_0)
          (extractStridedSlice Cert.ReferenceIdeal.S1x128x128 ![0, 0, 0] W2 Cert.ReferenceIdeal.Gen.slices_S6x128x128_S1x128x128_0_0_0)
          (extractStridedSlice Cert.ReferenceIdeal.S1x128 ![0, 0] b2 Cert.ReferenceIdeal.Gen.slices_S6x128_S1x128_0_0) :=
  bridge 0 0 0 rfl rfl _ _ _ x W1 b1 W2 b2 Iarr

/-- Branch 1: columns 128 to 255 of the node table. -/
theorem bridge_1 (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, 128] (Cert.NodeTable.nodeTable x W1 b1 W2 b2)
          Cert.KernelIdeal.Gen.slices_S100000x768_S100000x128_0_128) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![1, 0, 0] W1 Cert.ReferenceIdeal.Gen.slices_S6x128x128_S1x128x128_1_0_0)
          (extractStridedSlice Cert.ReferenceIdeal.S1x128 ![1, 0] b1 Cert.ReferenceIdeal.Gen.slices_S6x128_S1x128_1_0)
          (extractStridedSlice Cert.ReferenceIdeal.S1x128x128 ![1, 0, 0] W2 Cert.ReferenceIdeal.Gen.slices_S6x128x128_S1x128x128_1_0_0)
          (extractStridedSlice Cert.ReferenceIdeal.S1x128 ![1, 0] b2 Cert.ReferenceIdeal.Gen.slices_S6x128_S1x128_1_0) :=
  bridge 1 1 128 rfl rfl _ _ _ x W1 b1 W2 b2 Iarr

/-- Branch 2: columns 256 to 383 of the node table. -/
theorem bridge_2 (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, 256] (Cert.NodeTable.nodeTable x W1 b1 W2 b2)
          Cert.KernelIdeal.Gen.slices_S100000x768_S100000x128_0_256) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![2, 0, 0] W1 Cert.ReferenceIdeal.Gen.slices_S6x128x128_S1x128x128_2_0_0)
          (extractStridedSlice Cert.ReferenceIdeal.S1x128 ![2, 0] b1 Cert.ReferenceIdeal.Gen.slices_S6x128_S1x128_2_0)
          (extractStridedSlice Cert.ReferenceIdeal.S1x128x128 ![2, 0, 0] W2 Cert.ReferenceIdeal.Gen.slices_S6x128x128_S1x128x128_2_0_0)
          (extractStridedSlice Cert.ReferenceIdeal.S1x128 ![2, 0] b2 Cert.ReferenceIdeal.Gen.slices_S6x128_S1x128_2_0) :=
  bridge 2 2 256 rfl rfl _ _ _ x W1 b1 W2 b2 Iarr

/-- Branch 3: columns 384 to 511 of the node table. -/
theorem bridge_3 (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, 384] (Cert.NodeTable.nodeTable x W1 b1 W2 b2)
          Cert.KernelIdeal.Gen.slices_S100000x768_S100000x128_0_384) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![3, 0, 0] W1 Cert.ReferenceIdeal.Gen.slices_S6x128x128_S1x128x128_3_0_0)
          (extractStridedSlice Cert.ReferenceIdeal.S1x128 ![3, 0] b1 Cert.ReferenceIdeal.Gen.slices_S6x128_S1x128_3_0)
          (extractStridedSlice Cert.ReferenceIdeal.S1x128x128 ![3, 0, 0] W2 Cert.ReferenceIdeal.Gen.slices_S6x128x128_S1x128x128_3_0_0)
          (extractStridedSlice Cert.ReferenceIdeal.S1x128 ![3, 0] b2 Cert.ReferenceIdeal.Gen.slices_S6x128_S1x128_3_0) :=
  bridge 3 3 384 rfl rfl _ _ _ x W1 b1 W2 b2 Iarr

/-- Branch 4: columns 512 to 639 of the node table. -/
theorem bridge_4 (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, 512] (Cert.NodeTable.nodeTable x W1 b1 W2 b2)
          Cert.KernelIdeal.Gen.slices_S100000x768_S100000x128_0_512) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![4, 0, 0] W1 Cert.ReferenceIdeal.Gen.slices_S6x128x128_S1x128x128_4_0_0)
          (extractStridedSlice Cert.ReferenceIdeal.S1x128 ![4, 0] b1 Cert.ReferenceIdeal.Gen.slices_S6x128_S1x128_4_0)
          (extractStridedSlice Cert.ReferenceIdeal.S1x128x128 ![4, 0, 0] W2 Cert.ReferenceIdeal.Gen.slices_S6x128x128_S1x128x128_4_0_0)
          (extractStridedSlice Cert.ReferenceIdeal.S1x128 ![4, 0] b2 Cert.ReferenceIdeal.Gen.slices_S6x128_S1x128_4_0) :=
  bridge 4 4 512 rfl rfl _ _ _ x W1 b1 W2 b2 Iarr

/-- Branch 5: columns 640 to 767 of the node table. -/
theorem bridge_5 (x : (⟨2, ![100000, 128]⟩ : Shape).Idx → EReal) (W1 : (⟨3, ![6, 128, 128]⟩ : Shape).Idx → EReal)
    (b1 : (⟨2, ![6, 128]⟩ : Shape).Idx → EReal) (W2 : (⟨3, ![6, 128, 128]⟩ : Shape).Idx → EReal)
    (b2 : (⟨2, ![6, 128]⟩ : Shape).Idx → EReal)
    (Iarr : (⟨Cert.KernelIdeal.S500000x1, .i32⟩ : BufTy).Contents (Elt Ideal)) :
    Host.gather Cert.KernelIdeal.gather_S100000x128_S500000x1_S500000x128_1_0_n_n_0_1_1128
        (extractStridedSlice Cert.KernelIdeal.S100000x128 ![0, 640] (Cert.NodeTable.nodeTable x W1 b1 W2 b2)
          Cert.KernelIdeal.Gen.slices_S100000x768_S100000x128_0_640) Iarr
      = Cert.ReferenceIdeal.BranchValue.refBranch
          (Host.gather Cert.ReferenceIdeal.gather_S100000x128_S500000x1_S500000x128_1_0_n_n_0_1_1128 x Iarr)
          (extractStridedSlice Cert.ReferenceIdeal.S1x128x128 ![5, 0, 0] W1 Cert.ReferenceIdeal.Gen.slices_S6x128x128_S1x128x128_5_0_0)
          (extractStridedSlice Cert.ReferenceIdeal.S1x128 ![5, 0] b1 Cert.ReferenceIdeal.Gen.slices_S6x128_S1x128_5_0)
          (extractStridedSlice Cert.ReferenceIdeal.S1x128x128 ![5, 0, 0] W2 Cert.ReferenceIdeal.Gen.slices_S6x128x128_S1x128x128_5_0_0)
          (extractStridedSlice Cert.ReferenceIdeal.S1x128 ![5, 0] b2 Cert.ReferenceIdeal.Gen.slices_S6x128_S1x128_5_0) :=
  bridge 5 5 640 rfl rfl _ _ _ x W1 b1 W2 b2 Iarr

end Cert.BranchBridge

end
-- ==== Proof.ResultsEq.lean ====
/-
  The two results are one function of the arguments.

  The kernel's result is the scatter-add, at the rows column 0 of the index array names, of the entrywise product over
  the six branches of the rows gathered out of slab `k` of the node table; the reference's is the same scatter-add of
  the product of branch `k` applied to the rows gathered out of the node array. Gathering rows commutes with a map
  that acts on each row by itself: slab `k` of the node table at a gathered row is branch `k` of that node row. So the
  six factors agree, and the rest of the two terms is the same text.
-/
import proofs.«143063_j85744727097473_2_alg».proof.Proof.KernelIdealRun
import proofs.«143063_j85744727097473_2_alg».proof.Proof.RefTerm
import proofs.«143063_j85744727097473_2_alg».proof.Proof.BranchBridge

set_option maxRecDepth 16384

noncomputable section

namespace Cert.ResultsEq

open Idealize.ShloMosaic Idealize.SL.Sem

set_option maxHeartbeats 40000000 in
/-- The kernel's term of the node table of the arrays is the reference's term of the arrays. -/
theorem results_eq (x : (⟨2, ![100000, 128]⟩ : Shape).Idx → EReal) (I : (⟨Cert.KernelIdeal.S500000x6, .i32⟩ : BufTy).Contents (Elt Ideal))
    (W1 : (⟨3, ![6, 128, 128]⟩ : Shape).Idx → EReal) (b1 : (⟨2, ![6, 128]⟩ : Shape).Idx → EReal)
    (W2 : (⟨3, ![6, 128, 128]⟩ : Shape).Idx → EReal) (b2 : (⟨2, ![6, 128]⟩ : Shape).Idx → EReal) :
    Cert.KernelIdeal.Tail.tailTerm (F := Ideal) (Cert.NodeTable.nodeTable x W1 b1 W2 b2) I
      = Cert.ReferenceIdeal.RefTerm.refFolded x I W1 b1 W2 b2 := by
  unfold Cert.KernelIdeal.Tail.tailTerm Cert.ReferenceIdeal.RefTerm.refFolded
  rw [Cert.BranchBridge.bridge_0, Cert.BranchBridge.bridge_1, Cert.BranchBridge.bridge_2, Cert.BranchBridge.bridge_3,
    Cert.BranchBridge.bridge_4, Cert.BranchBridge.bridge_5]
  rfl

end Cert.ResultsEq

end
-- ==== Proof.lean ====
/-
  The five claims about the node-branch kernel and its reference.

  Both programs compute, for 500000 index rows of six node indices each, the entrywise product over six branches of a
  two-layer map (linear, ramp, linear) of the node row the branch's index names, and add each product row into the
  output row that the row's first index names. The reference gathers node rows and applies each branch to the
  gathered rows; the kernel applies every branch to every node row once, inside one region of 25 grid points that
  fills a 100000 x 768 node table, and gathers rows of the table's column slabs. A map acting on each row by itself
  commutes with gathering rows, so the two results are one function of the arguments over the extended reals; no
  finiteness of the inputs is used.

  The frames: each kernel program is its region between host operations (KernelAround, KernelIdealAround); the
  reference is host operations only and its frame is its run with the result dropped. The idealization rewrote no
  operation, so `preserves` has nothing to state.
-/
import proofs.«143063_j85744727097473_2_alg».proof.Defs
import proofs.«143063_j85744727097473_2_alg».proof.Proof.Gen.Kernel
import proofs.«143063_j85744727097473_2_alg».proof.Proof.Gen.KernelIdeal
import proofs.«143063_j85744727097473_2_alg».proof.Proof.Gen.ReferenceIdeal
import proofs.«143063_j85744727097473_2_alg».proof.Proof.Gen.Pre_finite_inputs
import proofs.«143063_j85744727097473_2_alg».proof.Proof.KernelAround
import proofs.«143063_j85744727097473_2_alg».proof.Proof.KernelIdealAround
import proofs.«143063_j85744727097473_2_alg».proof.Proof.KernelIdealRun
import proofs.«143063_j85744727097473_2_alg».proof.Proof.RefRunP
import proofs.«143063_j85744727097473_2_alg».proof.Proof.RefTerm
import proofs.«143063_j85744727097473_2_alg».proof.Proof.ResultsEq
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Around.frame (F := Bits) m ρ

theorem frame_ki : Cert.frame_KernelIdeal := fun m ρ _ => Cert.KernelIdeal.Around.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

set_option maxHeartbeats 4000000 in
/-- The kernel's result is its later lines' term of the node table of the arguments; the reference's is its
    operations' term of the arguments; the two terms are one function (ResultsEq). -/
theorem algebraic : Cert.algebraic_KernelIdeal_ReferenceIdeal := by
  intro m ρ m' ρ' _ hagree
  refine ⟨fun c => Cert.KernelIdeal.Tail.tailTerm (F := Ideal) (Cert.KernelIdeal.Table.tableAt m c)
      (m ((c.tc : Thread Cert.KernelIdeal.nD Cert.KernelIdeal.τ).loc Cert.KernelIdeal.main_arg1)), Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  rw [Cert.ReferenceIdeal.RefTerm.res_eq, Cert.ReferenceIdeal.RefTerm.refFn_eq_folded, a0, a1, a2, a3, a4, a5]
  beta_reduce
  rw [Cert.KernelIdeal.Tail.table_eq]
  exact (Cert.ResultsEq.results_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
